-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S2x524288 : Shape := ⟨2, ![2, 524288]⟩
abbrev S32x32 : Shape := ⟨2, ![32, 32]⟩
abbrev S32 : Shape := ⟨1, ![32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S16384x32 .f32) (main_arg1 : IVec S2x524288 32) (main_arg2 : FVec F S32x32 .f32) (main_arg3 : FVec F S32 .f32) (main_arg4 : FVec F S32x32 .f32) (main_arg5 : FVec F S32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S16384x32 : Shape := ⟨2, ![16384, 32]⟩
abbrev S2x524288 : Shape := ⟨2, ![2, 524288]⟩
abbrev S32x32 : Shape := ⟨2, ![32, 32]⟩
abbrev S32 : Shape := ⟨1, ![32]⟩
abbrev S1x524288 : Shape := ⟨2, ![1, 524288]⟩
abbrev S524288 : Shape := ⟨1, ![524288]⟩
abbrev S1048576 : Shape := ⟨1, ![1048576]⟩
abbrev S_ : Shape := ⟨0, ![]⟩
abbrev S16384x16384 : Shape := ⟨2, ![16384, 16384]⟩
abbrev S1048576x1 : Shape := ⟨2, ![1048576, 1]⟩
abbrev S1048576x2 : Shape := ⟨2, ![1048576, 2]⟩
abbrev S1x32 : Shape := ⟨2, ![1, 32]⟩
abbrev S1024x4096 : Shape := ⟨2, ![1024, 4096]⟩
abbrev S4096x32 : Shape := ⟨2, ![4096, 32]⟩
abbrev S1024x32 : Shape := ⟨2, ![1024, 32]⟩

abbrev nBuf : Space → Nat
  | .hbm => 39
  | .vmem => 13
  | .smem => 0
  | _ => 0

abbrev bufTy : (tb : Table) → Fin (tcTables nBuf tb) → BufTy
  | .hbm, ⟨0, _⟩ => ⟨S16384x32, .f32⟩
  | .hbm, ⟨1, _⟩ => ⟨S2x524288, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S1048576, .i32⟩
  | .hbm, ⟨11, _⟩ => ⟨S1048576, .i32⟩
  | .hbm, ⟨12, _⟩ => ⟨S_, .bf16⟩
  | .hbm, ⟨13, _⟩ => ⟨S16384x16384, .bf16⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x1, .i32⟩
  | .hbm, ⟨30, _⟩ => ⟨S1048576x2, .i32⟩
  | .hbm, ⟨31, _⟩ => ⟨S_, .bf16⟩
  | .hbm, ⟨32, _⟩ => ⟨S1048576, .bf16⟩
  | .hbm, ⟨33, _⟩ => ⟨S16384x16384, .bf16⟩
  | .hbm, ⟨34, _⟩ => ⟨S32x32, .f32⟩
  | .hbm, ⟨35, _⟩ => ⟨S32x32, .f32⟩
  | .hbm, ⟨36, _⟩ => ⟨S1x32, .f32⟩
  | .hbm, ⟨37, _⟩ => ⟨S1x32, .f32⟩
  | .hbm, ⟨38, _⟩ => ⟨S16384x32, .f32⟩
  | .local _ .vmem, ⟨0, _⟩ => ⟨S1024x4096, .bf16⟩
  | .local _ .vmem, ⟨1, _⟩ => ⟨S1024x4096, .bf16⟩
  | .local _ .vmem, ⟨2, _⟩ => ⟨S4096x32, .f32⟩
  | .local _ .vmem, ⟨3, _⟩ => ⟨S4096x32, .f32⟩
  | .local _ .vmem, ⟨4, _⟩ => ⟨S1024x32, .f32⟩
  | .local _ .vmem, ⟨5, _⟩ => ⟨S1024x32, .f32⟩
  | .local _ .vmem, ⟨6, _⟩ => ⟨S32x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S524288_S1048576_d0 : Shape.Concatenates [S524288, S524288] S1048576 0
  bcast_S_S16384x16384 : S_.BroadcastsInDim S16384x16384 (![] : Fin 0 → Fin S16384x16384.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  transposes_S32x32_S32x32_1_0 : S32x32.Transposes [1, 0] S32x32
  shapeCasts_S32_S1x32 : S32.ShapeCasts S1x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  scatter_S16384x16384_S1048576x2_S1048576_n_01_01_1_wf : ScatterDims.WF S16384x16384 S1048576x2 S1048576 [] [0, 1] [0, 1] 1
  dot_S1024x4096_S4096x32_S1024x32_1_0_0_1_n_n_wf : DotDims.WF S1024x4096 S4096x32 S1024x32 [1] [0] [0] [1] [] []
  dot_S1024x32_S32x32_S1024x32_1_0_0_1_n_n_wf : DotDims.WF S1024x32 S32x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x16384.size a
  hwx0_0 : ∀ i : grid0.Coords, EltTy.bits .bf16 = 32 ∨ (Rect.block (s := S16384x16384) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S16384x32.size a
  hwx0_1 : ∀ i : grid0.Coords, EltTy.bits .f32 = 32 ∨ (Rect.block (s := S16384x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S16384x32.size a
  hwx0_7 : ∀ i : grid0.Coords, EltTy.bits .f32 = 32 ∨ (Rect.block (s := S16384x32) S1024x32.size (cc0_transform_7 i) (hinb0_7 i)).WholeWords (EltTy.packing .f32)

variable [Facts₀]

def scatter_S16384x16384_S1048576x2_S1048576_n_01_01_1 : ScatterDims S16384x16384 S1048576x2 S1048576 where
  updateWindowDims := []
  insertedWindowDims := [0, 1]
  scatterDimsToOperandDims := [0, 1]
  indexVectorDim := 1
  wf := scatter_S16384x16384_S1048576x2_S1048576_n_01_01_1_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf

abbrev win0_0 : Pipeline.Window sig grid0 :=
  Pipeline.Window.ofSpec (Memref.whole main_v21) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1024x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x32 : Shape := ⟨2, ![16384, 32]⟩
abbrev S2x524288 : Shape := ⟨2, ![2, 524288]⟩
abbrev S32x32 : Shape := ⟨2, ![32, 32]⟩
abbrev S32 : Shape := ⟨1, ![32]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S1x32 : Shape := ⟨2, ![1, 32]⟩

abbrev nBuf : Space → Nat
  | .hbm => 64
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S2x524288, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S_, .f32⟩
  | .hbm, ⟨11, _⟩ => ⟨S16384x16384, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S_, .i32⟩
  | .hbm, ⟨20, _⟩ => ⟨S524288, .i32⟩
  | .hbm, ⟨21, _⟩ => ⟨S524288, .i1⟩
  | .hbm, ⟨22, _⟩ => ⟨S_, .i32⟩
  | .hbm, ⟨23, _⟩ => ⟨S524288, .i32⟩
  | .hbm, ⟨24, _⟩ => ⟨S524288, .i32⟩
  | .hbm, ⟨25, _⟩ => ⟨S524288, .i32⟩
  | .hbm, ⟨26, _⟩ => ⟨S524288x1, .i32⟩
  | .hbm, ⟨27, _⟩ => ⟨S524288x1, .i32⟩
  | .hbm, ⟨28, _⟩ => ⟨S524288x2, .i32⟩
  | .hbm, ⟨29, _⟩ => ⟨S_, .f32⟩
  | .hbm, ⟨30, _⟩ => ⟨S524288, .f32⟩
  | .hbm, ⟨31, _⟩ => ⟨S16384x16384, .f32⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x1, .i32⟩
  | .hbm, ⟨48, _⟩ => ⟨S524288x2, .i32⟩
  | .hbm, ⟨49, _⟩ => ⟨S_, .f32⟩
  | .hbm, ⟨50, _⟩ => ⟨S524288, .f32⟩
  | .hbm, ⟨51, _⟩ => ⟨S16384x16384, .f32⟩
  | .hbm, ⟨52, _⟩ => ⟨S16384x32, .f32⟩
  | .hbm, ⟨53, _⟩ => ⟨S32x32, .f32⟩
  | .hbm, ⟨54, _⟩ => ⟨S16384x32, .f32⟩
  | .hbm, ⟨55, _⟩ => ⟨S1x32, .f32⟩
  | .hbm, ⟨56, _⟩ => ⟨S16384x32, .f32⟩
  | .hbm, ⟨57, _⟩ => ⟨S16384x32, .f32⟩
  | .hbm, ⟨58, _⟩ => ⟨S32x32, .f32⟩
  | .hbm, ⟨59, _⟩ => ⟨S16384x32, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  transposes_S32x32_S32x32_1_0 : S32x32.Transposes [1, 0] S32x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  scatter_S16384x16384_S524288x2_S524288_n_01_01_1_wf : ScatterDims.WF S16384x16384 S524288x2 S524288 [] [0, 1] [0, 1] 1
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.LibFrameShared.lean ====
/-
  A frame run with a tracking invariant for a pipeline whose windows may read ONE array through
  several windows.

  The pipeline library's tracking frame run asks that the windows' arrays be pairwise distinct,
  because it hands each window its array whole. When an array is read through two input windows
  the two must share it: each holds a part of the share, and nothing else changes. This module
  states the same run with that one step left to the caller: instead of distinctness it takes an
  entailment `hsplit` saying how the distinct buffers behind the arrays, each held whole at its
  region-entry contents, make up the proof data's windowed arrays at entry. Everything else — the
  scratch and the generator register routed into the class invariant at entry and back at exit,
  the bypassing buffers read back unchanged, the conclusion `FramePost` — is as in the library.
-/
import Idealize.ShloMosaic.Lib.Pipeline.Frame

noncomputable section

namespace Cert.LibFrameShared

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The tracking frame run for windows that may share arrays. `hinj`: the program's staging cells are
    pairwise distinct; `hw`: the layout, the arrays' distinctness apart; `hne`, `harr`, `hstage`: no block
    empty, arrays and staging memrefs whole buffers; `hbody`: the body obligation at every point;
    `howed`: the core owes nothing; `hmain`: the program up to the region, ending at the contents `V`;
    `hsplit`: the buffers behind the arrays, whole at `V`, make the proof data's arrays at entry (an
    array read through several windows divided among them); `hin` / `hout`: the class invariant yields
    the data's invariant before the first point and gets it back after the last. -/
theorem θ_run_frame_track_shared
    (hinj : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (V c))
    (hX := fun c => by
      iintro ⟨HU, -, -, -, Hp, -⟩; imodintro
      isplitl [Hp]; · iexists _; iexact Hp
      iexact HU)
    (hin := fun c => by
      exact (show _ ⊢ ΦA (cfg).spec c by
        unfold ΦA; iintro ⟨Hp, -, Hr⟩
        isplitl [Hr] <;> iassumption).trans (hin c))
    (hout := fun c => by
      exact (hout c).trans (by
        rw [ownSems0_none]; unfold ΦA
        iintro ⟨Hr, Hp⟩
        isplitl [Hp]; · iexact Hp
        isplitr; · iempintro
        iexact Hr))
    (QY := fun c s => ∀ b ∈ restRefsP sig Prefetch.none (cfg).spec, s.mem ((c.tc : Thread nD τ).loc b) = V c b)
    (hY := fun c s' => by
      iintro ⟨-, HU, HSI⟩
      unfold unscopedRestP
      imodintro
      iapply (pointsTo_read_all (restRefsP sig Prefetch.none (cfg).spec) (fun b => (c.tc : Thread nD τ).loc b) (V c) s')
      isplitl [HU] <;> iassumption)
    (hQ := fun s h c => ⟨(h c).1, rest_of_restP Prefetch.none (cfg).spec (fun k => k.elim0) c (V c) s (fun k => k.elim0) (h c).2.1 (h c).2.2⟩)

end Cert.LibFrameShared

end
-- ==== Proof.KFrameBase.lean ====
/-
  The kernel's region as the pipeline runs it, the part every case of the body shares.

  The grid has 16 x 4 = 64 points, point `t` at row tile `t / 4` and reduction step `t % 4`. The body
  branches on the reduction step alone: at step 0 it first clears the accumulator; at every step it
  adds one tile product into the accumulator; at step 3 it also computes the two affine layers and
  stores the output tile. So there are three cases — the first step, a middle step, the last step —
  and the output window is written, and written back, at the last step only.

  Stated here: the arrays as the region finds them (after the host operations that build the
  adjacency and lay out the weights), each window's block at a point, that each input's staging
  buffer holds its block at every point, the two branch conditions in closed form over the grid,
  where the output window is idle, and the class invariant opened at the accumulator.
-/
import proofs.«136598_j14061722927248_2_alg».proof.Proof.Gen.Kernel.Launch
import proofs.«136598_j14061722927248_2_alg».proof.Proof.Gen.Kernel.Skeleton
import proofs.«136598_j14061722927248_2_alg».proof.Proof.Gen.Kernel.Points
import proofs.«136598_j14061722927248_2_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc) (hb : b = main_arg0 ∨ b = main_arg1 ∨ b = main_arg2 ∨ b = main_arg3 ∨ b = main_arg4 ∨ b = main_arg5) :
    V m c b = m ((c : Thread nD τ).loc b) := by
  rcases hb with rfl | rfl | rfl | rfl | rfl | rfl <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the region-entry contents and whose body leaves the block in place (one lemma per input window). -/
theorem beforeIn0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeIn1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeIn2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeIn3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeIn4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeIn5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeIn6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first reduction step": the condition under which the body clears the accumulator. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last reduction step": the condition under which the body finishes and stores the output tile. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

/-- The seven input windows are never idle. -/
theorem liveIn : ∀ (w : Fin 8), w.val < 7 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
/-- Away from the last reduction step the output window is idle, -/
theorem idleOut : ∀ t : Fin cfg0.N, ¬condLast (grid0.coords t) → cfg0.idle 7 (grid0.coords t) = true := by decide +kernel
/-- and is not written back there; -/
theorem noFlushOut : ∀ t : Fin cfg0.N, ¬condLast (grid0.coords t) → (cfg0.win 7).flush t = false := by decide +kernel
/-- at the last step it is live. -/
theorem liveOut : ∀ t : Fin cfg0.N, condLast (grid0.coords t) → cfg0.idle 7 (grid0.coords t) = false := by decide +kernel

/-! ## The memrefs the body is called with -/

abbrev ms0 (t : Fin cfg0.N) : Memref sig .tc .vmem S1024x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x32 .f32 := win0_7.stage (cfg0.slots t 7)
abbrev hs7 (t : Fin cfg0.N) : (ms7 t).IsWhole := hstage0_7 ((cfg0.slots t 7).cast nbuf0_7)
/-- The accumulator: a whole scoped buffer of the kernel's own. -/
abbrev accM : Memref sig .tc .vmem S1024x32 .f32 := Memref.whole cc0_scratch0
abbrev accV : View sig .tc .vmem S1024x32 .f32 := accM.view
/-- One staging buffer of the output window, through which its contents are stated. -/
abbrev outV : View sig .tc .vmem S1024x32 .f32 := (Memref.whole cc0_stg7_0 : Memref sig .tc .vmem S1024x32 .f32).view

/-- The class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frm

end
-- ==== Proof.KRunFirst.lean ====
/-
  The body at a FIRST reduction step: it clears the accumulator, then adds the step's tile product
  (adjacency tile times feature tile) into it, and stores nothing into the output tile. The run is
  found by symbolic execution; what the accumulator ends with is its list of written pieces.
-/
import proofs.«136598_j14061722927248_2_alg».proof.Proof.KFrameBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a first step: on whole staging memrefs holding the adjacency tile `x0` and the feature tile `x1`, the
    accumulator at anything, the body runs to its end holding the two tiles as they were and the accumulator
    with its pieces written. -/
noncomputable def runFirst (c : Dev nD) (i : grid0.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S1024x32 .f32) (harg10 : arg10.IsWhole)
    (hF : condFirst i) (hL : ¬condLast i) (x0 : Vec F S1024x4096 .bf16) (x1 : Vec F S4096x32 .f32) :
    { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%d, %fs, -, HS⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Frm

end
-- ==== Proof.KRunMid.lean ====
/-
  The body at a MIDDLE reduction step: it adds the step's tile product into the accumulator, which
  holds what the step before left, and stores nothing into the output tile.
-/
import proofs.«136598_j14061722927248_2_alg».proof.Proof.KRunFirst

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a middle step: the accumulator at the contents `xs` the step before left. -/
noncomputable def runMid (c : Dev nD) (i : grid0.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S1024x32 .f32) (harg10 : arg10.IsWhole)
    (hF : ¬condFirst i) (hL : ¬condLast i) (x0 : Vec F S1024x4096 .bf16) (x1 : Vec F S4096x32 .f32) (xs : Vec F S1024x32 .f32) :
    { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg10 fullShare xs
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Frm

end
-- ==== Proof.KRunLast.lean ====
/-
  The body at a LAST reduction step: it adds the step's tile product into the accumulator, then
  reads the finished messages back, applies the two affine layers (the aggregate layer to the
  messages, the update layer to the node's own rows) and stores their sum as the output tile.
-/
import proofs.«136598_j14061722927248_2_alg».proof.Proof.KRunMid

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last step: the seven inputs at their contents, the output tile's buffer at anything, the accumulator at
    the contents `xs` the step before left; the output's buffer and the accumulator end with their pieces written. -/
noncomputable def runLast (c : Dev nD) (i : grid0.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S1024x32 .f32) (harg10 : arg10.IsWhole)
    (hF : ¬condFirst i) (hL : condLast i) (x0 : Vec F S1024x4096 .bf16) (x1 : Vec F S4096x32 .f32) (x2 : Vec F S1024x32 .f32)
    (x3 : Vec F S32x32 .f32) (x4 : Vec F S1x32 .f32) (x5 : Vec F S32x32 .f32) (x6 : Vec F S1x32 .f32) (xs : Vec F S1024x32 .f32) :
    Σ' (L7 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Frm

end
-- ==== Proof.KFrameData.lean ====
/-
  What the accumulator and the output tile hold after each grid point, and the proof data of the
  pipeline.

  Point `t` is reduction step `t % 4` of row tile `t / 4`. After a first step the accumulator holds
  what the first-step run leaves of the point's adjacency and feature tiles; after a middle or last
  step, what that run leaves of the tiles and of the accumulator's contents after the point before.
  The output tile's buffer is written at last steps only, with what the last-step run leaves. The
  node features are read through two windows (a 4096-row tile per reduction step and a 1024-row
  tile per row tile): the proof data give each window one half of that array's share.
-/
import proofs.«136598_j14061722927248_2_alg».proof.Proof.KRunLast

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, at a grid point -/

theorem hFirst_of (t : Fin cfg0.N) (h : t.val % 4 = 0) : condFirst (grid0.coords t) := (hcondFirst t).mpr h
theorem nFirst_of (t : Fin cfg0.N) (h : ¬t.val % 4 = 0) : ¬condFirst (grid0.coords t) := fun h' => h ((hcondFirst t).mp h')
theorem hLast_of (t : Fin cfg0.N) (h : t.val % 4 = 3) : condLast (grid0.coords t) := (hcondLast t).mpr h
theorem nLast_of (t : Fin cfg0.N) (h : ¬t.val % 4 = 3) : ¬condLast (grid0.coords t) := fun h' => h ((hcondLast t).mp h')

/-- The first-step run at point `t`, on the point's staging memrefs and tiles. -/
abbrev runFirstAt (c : Dev nD) (t : Fin cfg0.N) (h0 : t.val % 4 = 0) (h3 : ¬t.val % 4 = 3) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (hFirst_of t h0) (nLast_of t h3) (iblk m c 0 t) (iblk m c 1 t)
/-- The middle-step run at point `t`, the accumulator at `xs`. -/
abbrev runMidAt (c : Dev nD) (t : Fin cfg0.N) (h0 : ¬t.val % 4 = 0) (h3 : ¬t.val % 4 = 3) (xs : Vec F S1024x32 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (nFirst_of t h0) (nLast_of t h3) (iblk m c 0 t) (iblk m c 1 t) xs
/-- The last-step run at point `t`, the accumulator at `xs`. -/
abbrev runLastAt (c : Dev nD) (t : Fin cfg0.N) (h0 : ¬t.val % 4 = 0) (h3 : t.val % 4 = 3) (xs : Vec F S1024x32 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (nFirst_of t h0) (hLast_of t h3) (iblk m c 0 t) (iblk m c 1 t) (iblk m c 2 t) (iblk m c 3 t) (iblk m c 4 t) (iblk m c 5 t) (iblk m c 6 t) xs

/-- The first-step run's pieces cover the accumulator. -/
theorem accFirst_cover (c : Dev nD) (t : Fin cfg0.N) (h0 : t.val % 4 = 0) (h3 : ¬t.val % 4 = 3) (y : S1024x32.Idx) :
    ∃ pc ∈ (runFirstAt m c t h0 h3).1, y ∈ pc.1.set :=
  View.cover_of_tiledL (runFirstAt m c t h0 h3).1 S1024x32.size (by sl_kernel_rfl) y
/-- The accumulator after a first step. -/
def accFirst (c : Dev nD) (t : Fin cfg0.N) (h0 : t.val % 4 = 0) (h3 : ¬t.val % 4 = 3) : Vec F S1024x32 .f32 :=
  accV.read (Elt F) (accV.writes (Elt F) accV.junk (runFirstAt m c t h0 h3).1)

theorem accMid_cover (c : Dev nD) (t : Fin cfg0.N) (h0 : ¬t.val % 4 = 0) (h3 : ¬t.val % 4 = 3) (xs : Vec F S1024x32 .f32) (y : S1024x32.Idx) :
    ∃ pc ∈ (runMidAt m c t h0 h3 xs).1, y ∈ pc.1.set :=
  View.cover_of_tiledL (runMidAt m c t h0 h3 xs).1 S1024x32.size (by sl_kernel_rfl) y
/-- The accumulator after a middle step. -/
def accMid (c : Dev nD) (t : Fin cfg0.N) (h0 : ¬t.val % 4 = 0) (h3 : ¬t.val % 4 = 3) (xs : Vec F S1024x32 .f32) : Vec F S1024x32 .f32 :=
  accV.read (Elt F) (accV.writes (Elt F) accV.junk (runMidAt m c t h0 h3 xs).1)

theorem accLast_cover (c : Dev nD) (t : Fin cfg0.N) (h0 : ¬t.val % 4 = 0) (h3 : t.val % 4 = 3) (xs : Vec F S1024x32 .f32) (y : S1024x32.Idx) :
    ∃ pc ∈ (runLastAt m c t h0 h3 xs).2.1, y ∈ pc.1.set :=
  View.cover_of_tiledL (runLastAt m c t h0 h3 xs).2.1 S1024x32.size (by sl_kernel_rfl) y
/-- The accumulator after a last step. -/
def accLast (c : Dev nD) (t : Fin cfg0.N) (h0 : ¬t.val % 4 = 0) (h3 : t.val % 4 = 3) (xs : Vec F S1024x32 .f32) : Vec F S1024x32 .f32 :=
  accV.read (Elt F) (accV.writes (Elt F) accV.junk (runLastAt m c t h0 h3 xs).2.1)

theorem outLast_cover (c : Dev nD) (t : Fin cfg0.N) (h0 : ¬t.val % 4 = 0) (h3 : t.val % 4 = 3) (xs : Vec F S1024x32 .f32) (y : S1024x32.Idx) :
    ∃ pc ∈ (runLastAt m c t h0 h3 xs).1, y ∈ pc.1.set :=
  View.cover_of_tiledL (runLastAt m c t h0 h3 xs).1 S1024x32.size (by sl_kernel_rfl) y
/-- The output tile after a last step. -/
def outLast (c : Dev nD) (t : Fin cfg0.N) (h0 : ¬t.val % 4 = 0) (h3 : t.val % 4 = 3) (xs : Vec F S1024x32 .f32) : Vec F S1024x32 .f32 :=
  outV.read (Elt F) (outV.writes (Elt F) outV.junk (runLastAt m c t h0 h3 xs).1)

/-- Away from a last step nothing is stored into the output tile's buffer: a placeholder nothing consults (the
    window is neither written back there nor read at the next point). -/
def outNone : Vec F S1024x32 .f32 := outV.read (Elt F) outV.junk

/-! ## The state after each point -/

/-- What the output tile's buffer and the accumulator hold after the body at position `n`. -/
def stateAt (c : Dev nD) : (n : ℕ) → n < cfg0.N → Vec F S1024x32 .f32 × Vec F S1024x32 .f32
  | 0, hn => (outNone, accFirst m c ⟨0, hn⟩ (Nat.zero_mod _) (by show ¬(0 % 4 = 3); decide))
  | n + 1, hn =>
    if h0 : (n + 1) % 4 = 0 then (outNone, accFirst m c ⟨n + 1, hn⟩ h0 (by show ¬((n + 1) % 4 = 3); omega))
    else if h3 : (n + 1) % 4 = 3 then
      (outLast m c ⟨n + 1, hn⟩ h0 h3 (stateAt c n (Nat.lt_of_succ_lt hn)).2, accLast m c ⟨n + 1, hn⟩ h0 h3 (stateAt c n (Nat.lt_of_succ_lt hn)).2)
    else (outNone, accMid m c ⟨n + 1, hn⟩ h0 h3 (stateAt c n (Nat.lt_of_succ_lt hn)).2)

theorem stateAt_first (c : Dev nD) (t : Fin cfg0.N) (h0 : t.val % 4 = 0) (h3 : ¬t.val % 4 = 3) :
    stateAt m c t.val t.isLt = (outNone, accFirst m c t h0 h3) := by
  obtain ⟨n, hn⟩ := t
  cases n with
  | zero => rfl
  | succ n => exact dif_pos h0

theorem stateAt_mid (c : Dev nD) (t : Fin cfg0.N) (h0 : ¬t.val % 4 = 0) (h3 : ¬t.val % 4 = 3) :
    stateAt m c t.val t.isLt = (outNone, accMid m c t h0 h3 (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h3)

theorem stateAt_last (c : Dev nD) (t : Fin cfg0.N) (h0 : ¬t.val % 4 = 0) (h3 : t.val % 4 = 3) :
    stateAt m c t.val t.isLt = (outLast m c t h0 h3 (stateAt m c (t.val - 1) (Nat.lt_of_le_of_lt (Nat.sub_le _ _) t.isLt)).2,
      accLast m c t h0 h3 (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h3)

/-! ## The invariant and the proof data -/

/-- Before the first point the class invariant (the accumulator at anything); afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-- The proof data on core `c`: the arrays as the region finds them; each input's buffer at its block after the
    body, the output's at `stateAt`; the node features' array shared half and half between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stateAt m c t.val t.isLt).1
  Φ t := PhiS m c t.val (Nat.le_of_lt_succ t.isLt)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (stateAt m c t.val t.isLt).1 := by dsimp only [dats]

theorem before0 (c : Dev nD) (t : Fin cfg0.N) (d) : (dats m 0 c).before 0 t d = iblk m c 0 t :=
  beforeIn0 m (dats m 0 c) (A_eq m c 0) (after0 m c) t d
theorem before1 (c : Dev nD) (t : Fin cfg0.N) (d) : (dats m 0 c).before 1 t d = iblk m c 1 t :=
  beforeIn1 m (dats m 0 c) (A_eq m c 1) (after1 m c) t d
theorem before2 (c : Dev nD) (t : Fin cfg0.N) (d) : (dats m 0 c).before 2 t d = iblk m c 2 t :=
  beforeIn2 m (dats m 0 c) (A_eq m c 2) (after2 m c) t d
theorem before3 (c : Dev nD) (t : Fin cfg0.N) (d) : (dats m 0 c).before 3 t d = iblk m c 3 t :=
  beforeIn3 m (dats m 0 c) (A_eq m c 3) (after3 m c) t d
theorem before4 (c : Dev nD) (t : Fin cfg0.N) (d) : (dats m 0 c).before 4 t d = iblk m c 4 t :=
  beforeIn4 m (dats m 0 c) (A_eq m c 4) (after4 m c) t d
theorem before5 (c : Dev nD) (t : Fin cfg0.N) (d) : (dats m 0 c).before 5 t d = iblk m c 5 t :=
  beforeIn5 m (dats m 0 c) (A_eq m c 5) (after5 m c) t d
theorem before6 (c : Dev nD) (t : Fin cfg0.N) (d) : (dats m 0 c).before 6 t d = iblk m c 6 t :=
  beforeIn6 m (dats m 0 c) (A_eq m c 6) (after6 m c) t d

/-- A window live at a point is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

end Cert.Kernel.Frm

end
-- ==== Proof.KFrameBody.lean ====
/-
  The body obligation: at every grid point the body, called on the point's staging buffers with
  the inputs at their blocks and the accumulator at what the point before left (anything at the very
  first point), runs to its end leaving the inputs as they were, the accumulator at this point's
  contents, and the output tile's buffer written at a last step and untouched otherwise. By cases on
  the reduction step, each case its run.
-/
import proofs.«136598_j14061722927248_2_alg».proof.Proof.KFrameData

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- A first reduction step: the accumulator is at anything (the very first point) or at what the row tile before
    left; either way the body clears it first. -/
theorem sound_first (c : Dev nD) (t : Fin cfg0.N) (h0 : t.val % 4 = 0) :
    bodyPre m c t ⊢ wp frame (wpE (defs₀ (F := F)) Variants.none c none) Set.univ (bodyAt0 t) (fun _ => bodyPost m c t) := by
  have h3 : ¬t.val % 4 = 3 := by omega
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 4 t rfl, leaves_live m c 5 t rfl, leaves_live m c 6 t rfl,
    after0, after1, after2, after3, after4, after5, after6]
  rw [Dat.leavesExact_idle (dats m 0 c) 7 t (idleOut t (nLast_of t h3)) (noFlushOut t (nLast_of t h3))]
  rw [stateAt_first m c t h0 h3]
  unfold accFirst; (try dsimp only)
  by_cases hz : t.val = 0
  · rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirstAt m c t h0 h3).2 Set.univ _)
    isplitl [H0]; · iexact H0
    isplitl [H1]; · iexact H1
    isplitl [HS]; · iexact HS
    iintro ⟨H0, H1, ⟨%es, HS⟩⟩
    isplitl [HS Hg]
    · isplitl [HS]
      · unfold owns; iexists _; isplitr
        swap; · iexact HS
        ipureintro; exact View.read_writes_of_cover _ _ _ _ _ (accFirst_cover m c t h0 h3)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirstAt m c t h0 h3).2 Set.univ _)
    isplitl [H0]; · iexact H0
    isplitl [H1]; · iexact H1
    isplitl [HS]; · iexists _; iexact HS
    iintro ⟨H0, H1, ⟨%es, HS⟩⟩
    isplitl [HS Hg]
    · isplitl [HS]
      · unfold owns; iexists _; isplitr
        swap; · iexact HS
        ipureintro; exact View.read_writes_of_cover _ _ _ _ _ (accFirst_cover m c t h0 h3)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

set_option maxHeartbeats 4000000 in
/-- A middle reduction step. -/
theorem sound_mid (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 4 t rfl, leaves_live m c 5 t rfl, leaves_live m c 6 t rfl,
    after0, after1, after2, after3, after4, after5, after6]
  rw [Dat.leavesExact_idle (dats m 0 c) 7 t (idleOut t (nLast_of t h3)) (noFlushOut t (nLast_of t h3))]
  rw [stateAt_mid m c t h0 h3]
  unfold accMid; (try dsimp only)
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runMidAt m c t h0 h3 _).2 Set.univ _)
  isplitl [H0]; · iexact H0
  isplitl [H1]; · iexact H1
  isplitl [HS]; · iexact HS
  iintro ⟨H0, H1, ⟨%es, HS⟩⟩
  isplitl [HS Hg]
  · isplitl [HS]
    · unfold owns; iexists _; isplitr
      swap; · iexact HS
      ipureintro; exact View.read_writes_of_cover _ _ _ _ _ (accMid_cover m c t h0 h3 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- A last reduction step: the output tile is stored. -/
theorem sound_last (c : Dev nD) (t : Fin cfg0.N) (h3 : t.val % 4 = 3) :
    bodyPre m c t ⊢ wp frame (wpE (defs₀ (F := F)) Variants.none c none) Set.univ (bodyAt0 t) (fun _ => bodyPost m c t) := by
  have h0 : ¬t.val % 4 = 0 := by omega
  have hz : t.val ≠ 0 := fun h => h0 (by rw [h])
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 4 t rfl, leaves_live m c 5 t rfl, leaves_live m c 6 t rfl,
    after0, after1, after2, after3, after4, after5, after6]
  rw [leaves_live m c 7 t (liveOut t (hLast_of t h3)), after7]
  rw [stateAt_last m c t h0 h3]
  unfold outLast accLast; (try dsimp only)
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLastAt m c t h0 h3 _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, ⟨%e7, H7⟩, ⟨%es, HS⟩⟩
  isplitl [HS Hg]
  · isplitl [HS]
    · unfold owns; iexists _; isplitr
      swap; · iexact HS
      ipureintro; exact View.read_writes_of_cover _ _ _ _ _ (accLast_cover m c t h0 h3 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (outLast_cover m c t h0 h3 _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · by_cases h3 : t.val % 4 = 3
    · exact sound_last m c t h3
    · exact sound_mid m c t h0 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Frm

end
-- ==== Proof.KFrameSplit.lean ====
/-
  The windowed arrays at the region's entry. Seven distinct buffers stand behind the eight windows:
  the node features are read through two windows. Each buffer is held whole at the full share; the
  features' buffer is divided into its two halves, one per window.
-/
import proofs.«136598_j14061722927248_2_alg».proof.Proof.KFrameBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the arrays, whole at the region-entry contents, make up the windowed arrays of any proof
    data whose arrays are those contents and which gives the features' two windows the two halves of the share. -/
theorem hsplit_of {c : Dev nD} (dat : Dat τ (Elt F) Unit ℕ (UR sig nD τ) ℕ cfg0 c)
    (hA : ∀ w, dat.A w = V m c (Pipeline.arrRef spec0 w))
    (hq : dat.q = fun w => match w with | ⟨1, _⟩ => fullShare.left | ⟨2, _⟩ => fullShare.right | _ => fullShare) :
    (Pipeline.arrBufs spec0 c (V m c) : sProp 𝕄) ⊢ dat.arrays (dat.arrAt · 0) := by
  classical
  have hR : dat.arrays (dat.arrAt · 0)
      = bigSep Finset.univ fun w : Fin 8 => (((c : Thread nD τ).loc (Pipeline.arrRef spec0 w)) ↦{dat.share w} V m c (Pipeline.arrRef spec0 w) : sProp 𝕄) := by
    unfold Dat.arrays
    exact bigSep_congr fun w _ => by
      rw [(arr_whole0 w).set_eq_univ]
      dsimp only
      rw [show dat.arrAt w 0 = dat.A w from rfl, hA w]
  rw [hR, bigSep_W0]
  have hL : (Pipeline.arrBufs spec0 c (V m c) : sProp 𝕄)
      = iprop((((c : Thread nD τ).loc main_v21) ↦{fullShare} V m c main_v21) ∗ (((c : Thread nD τ).loc main_arg0) ↦{fullShare} V m c main_arg0)
          ∗ (((c : Thread nD τ).loc main_v22) ↦{fullShare} V m c main_v22) ∗ (((c : Thread nD τ).loc main_v24) ↦{fullShare} V m c main_v24)
          ∗ (((c : Thread nD τ).loc main_v23) ↦{fullShare} V m c main_v23) ∗ (((c : Thread nD τ).loc main_v25) ↦{fullShare} V m c main_v25)
          ∗ (((c : Thread nD τ).loc main_v26) ↦{fullShare} V m c main_v26)) :=
    bigSep_eq_bigSepL_of_eq [main_v21, main_arg0, main_v22, main_v24, main_v23, main_v25, main_v26] (by decide) (by decide) _
  rw [hL]
  have hs : ∀ w : Fin 8, dat.share w = (match w with | ⟨1, _⟩ => fullShare.left | ⟨2, _⟩ => fullShare.right | _ => fullShare) := by
    intro w; unfold Dat.share; rw [hq]
    match w with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  rw [hs 0, hs 1, hs 2, hs 3, hs 4, hs 5, hs 6, hs 7]
  iintro ⟨H21, Ha0, H22, H24, H23, H25, H26⟩
  ihave Hs := (pointsTo_share (PosShare.mem_left_op_right fullShare)).1 $$ Ha0
  icases Hs with ⟨HL, HR⟩
  isplitl [H21]; · iexact H21
  isplitl [HL]; · iexact HL
  isplitl [HR]; · iexact HR
  isplitl [H22]; · iexact H22
  isplitl [H24]; · iexact H24
  isplitl [H23]; · iexact H23
  isplitl [H25]; · iexact H25
  iexact H26

end Cert.Kernel.Frm

end
-- ==== Proof.KFrameRun.lean ====
/-
  The run of the whole program and the frame: every weakly fair execution terminates without a
  fault; afterwards the output array holds what the pipeline library computes from the proof data,
  and every argument array is as it was launched (the node features because an input window's array
  is never written; the other arguments because no window's array is theirs and no host operation
  writes them).
-/
import proofs.«136598_j14061722927248_2_alg».proof.Proof.KFrameBody
import proofs.«136598_j14061722927248_2_alg».proof.Proof.KFrameSplit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, and the library's post for the proof data. -/
theorem run_main : θ_run defs (onTc (τ := τ) (main (F := F))) (s₀ m ρ) (Pipeline.FramePost cfgs (dats m) 0 (V m)) :=
  Cert.LibFrameShared.θ_run_frame_track_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := fun c => hsplit_of m (dats m 0 c) (A_eq m c) rfl) (hin := hin m) (hout := hout m)

/-- The library's post gives the frame's: each argument array ends as launched. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine ⟨?_, ?_, ?_, ?_, ?_, ?_⟩
  · exact ((h c).1 1).trans (((dats m 0 c).arrAt_in 1 rfl _).trans ((A_eq m c 1).trans (V_arg m c main_arg0 (.inl rfl))))
  · exact ((h c).2 main_arg1 (Pipeline.mem_restRefs_of _ rfl (by decide))).trans (V_arg m c main_arg1 (.inr (.inl rfl)))
  · exact ((h c).2 main_arg2 (Pipeline.mem_restRefs_of _ rfl (by decide))).trans (V_arg m c main_arg2 (.inr (.inr (.inl rfl))))
  · exact ((h c).2 main_arg3 (Pipeline.mem_restRefs_of _ rfl (by decide))).trans (V_arg m c main_arg3 (.inr (.inr (.inr (.inl rfl)))))
  · exact ((h c).2 main_arg4 (Pipeline.mem_restRefs_of _ rfl (by decide))).trans (V_arg m c main_arg4 (.inr (.inr (.inr (.inr (.inl rfl))))))
  · exact ((h c).2 main_arg5 (Pipeline.mem_restRefs_of _ rfl (by decide))).trans (V_arg m c main_arg5 (.inr (.inr (.inr (.inr (.inr rfl))))))

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m r h c) (run_main m ρ)

end Cert.Kernel.Frm

end
-- ==== Proof.KIFrameBase.lean ====
/-
  The kernel's region as the pipeline runs it, the part every case of the body shares.

  The grid has 16 x 4 = 64 points, point `t` at row tile `t / 4` and reduction step `t % 4`. The body
  branches on the reduction step alone: at step 0 it first clears the accumulator; at every step it
  adds one tile product into the accumulator; at step 3 it also computes the two affine layers and
  stores the output tile. So there are three cases — the first step, a middle step, the last step —
  and the output window is written, and written back, at the last step only.

  Stated here: the arrays as the region finds them (after the host operations that build the
  adjacency and lay out the weights), each window's block at a point, that each input's staging
  buffer holds its block at every point, the two branch conditions in closed form over the grid,
  where the output window is idle, and the class invariant opened at the accumulator.
-/
import proofs.«136598_j14061722927248_2_alg».proof.Proof.Gen.KernelIdeal.Launch
import proofs.«136598_j14061722927248_2_alg».proof.Proof.Gen.KernelIdeal.Skeleton
import proofs.«136598_j14061722927248_2_alg».proof.Proof.Gen.KernelIdeal.Points
import proofs.«136598_j14061722927248_2_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_arg (c : Dev nD) (b : Ref sig .tc) (hb : b = main_arg0 ∨ b = main_arg1 ∨ b = main_arg2 ∨ b = main_arg3 ∨ b = main_arg4 ∨ b = main_arg5) :
    V m c b = m ((c : Thread nD τ).loc b) := by
  rcases hb with rfl | rfl | rfl | rfl | rfl | rfl <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the region-entry contents and whose body leaves the block in place (one lemma per input window). -/
theorem beforeIn0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeIn1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeIn2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeIn3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeIn4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeIn5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeIn6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first reduction step": the condition under which the body clears the accumulator. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last reduction step": the condition under which the body finishes and stores the output tile. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

/-- The seven input windows are never idle. -/
theorem liveIn : ∀ (w : Fin 8), w.val < 7 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
/-- Away from the last reduction step the output window is idle, -/
theorem idleOut : ∀ t : Fin cfg0.N, ¬condLast (grid0.coords t) → cfg0.idle 7 (grid0.coords t) = true := by decide +kernel
/-- and is not written back there; -/
theorem noFlushOut : ∀ t : Fin cfg0.N, ¬condLast (grid0.coords t) → (cfg0.win 7).flush t = false := by decide +kernel
/-- at the last step it is live. -/
theorem liveOut : ∀ t : Fin cfg0.N, condLast (grid0.coords t) → cfg0.idle 7 (grid0.coords t) = false := by decide +kernel

/-! ## The memrefs the body is called with -/

abbrev ms0 (t : Fin cfg0.N) : Memref sig .tc .vmem S1024x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x32 .f32 := win0_7.stage (cfg0.slots t 7)
abbrev hs7 (t : Fin cfg0.N) : (ms7 t).IsWhole := hstage0_7 ((cfg0.slots t 7).cast nbuf0_7)
/-- The accumulator: a whole scoped buffer of the kernel's own. -/
abbrev accM : Memref sig .tc .vmem S1024x32 .f32 := Memref.whole cc0_scratch0
abbrev accV : View sig .tc .vmem S1024x32 .f32 := accM.view
/-- One staging buffer of the output window, through which its contents are stated. -/
abbrev outV : View sig .tc .vmem S1024x32 .f32 := (Memref.whole cc0_stg7_0 : Memref sig .tc .vmem S1024x32 .f32).view

/-- The class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frm

end
-- ==== Proof.KIRunFirst.lean ====
/-
  The body at a FIRST reduction step: it clears the accumulator, then adds the step's tile product
  (adjacency tile times feature tile) into it, and stores nothing into the output tile. The run is
  found by symbolic execution; what the accumulator ends with is its list of written pieces.
-/
import proofs.«136598_j14061722927248_2_alg».proof.Proof.KIFrameBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a first step: on whole staging memrefs holding the adjacency tile `x0` and the feature tile `x1`, the
    accumulator at anything, the body runs to its end holding the two tiles as they were and the accumulator
    with its pieces written. -/
noncomputable def runFirst (c : Dev nD) (i : grid0.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S1024x32 .f32) (harg10 : arg10.IsWhole)
    (hF : condFirst i) (hL : ¬condLast i) (x0 : Vec F S1024x4096 .bf16) (x1 : Vec F S4096x32 .f32) :
    { LS : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%d, %fs, -, HS⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Frm

end
-- ==== Proof.KIRunMid.lean ====
/-
  The body at a MIDDLE reduction step: it adds the step's tile product into the accumulator, which
  holds what the step before left, and stores nothing into the output tile.
-/
import proofs.«136598_j14061722927248_2_alg».proof.Proof.KIRunFirst

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a middle step: the accumulator at the contents `xs` the step before left. -/
noncomputable def runMid (c : Dev nD) (i : grid0.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S1024x32 .f32) (harg10 : arg10.IsWhole)
    (hF : ¬condFirst i) (hL : ¬condLast i) (x0 : Vec F S1024x4096 .bf16) (x1 : Vec F S4096x32 .f32) (xs : Vec F S1024x32 .f32) :
    { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg10 fullShare xs
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Frm

end
-- ==== Proof.KIRunLast.lean ====
/-
  The body at a LAST reduction step: it adds the step's tile product into the accumulator, then
  reads the finished messages back, applies the two affine layers (the aggregate layer to the
  messages, the update layer to the node's own rows) and stores their sum as the output tile.
-/
import proofs.«136598_j14061722927248_2_alg».proof.Proof.KIRunMid

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a last step: the seven inputs at their contents, the output tile's buffer at anything, the accumulator at
    the contents `xs` the step before left; the output's buffer and the accumulator end with their pieces written. -/
noncomputable def runLast (c : Dev nD) (i : grid0.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S1024x32 .f32) (harg9 : arg9.IsWhole) (arg10 : Memref sig .tc .vmem S1024x32 .f32) (harg10 : arg10.IsWhole)
    (hF : ¬condFirst i) (hL : condLast i) (x0 : Vec F S1024x4096 .bf16) (x1 : Vec F S4096x32 .f32) (x2 : Vec F S1024x32 .f32)
    (x3 : Vec F S32x32 .f32) (x4 : Vec F S1x32 .f32) (x5 : Vec F S32x32 .f32) (x6 : Vec F S1x32 .f32) (xs : Vec F S1024x32 .f32) :
    Σ' (L7 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg10.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Frm

end
-- ==== Proof.KIFrameData.lean ====
/-
  What the accumulator and the output tile hold after each grid point, and the proof data of the
  pipeline.

  Point `t` is reduction step `t % 4` of row tile `t / 4`. After a first step the accumulator holds
  what the first-step run leaves of the point's adjacency and feature tiles; after a middle or last
  step, what that run leaves of the tiles and of the accumulator's contents after the point before.
  The output tile's buffer is written at last steps only, with what the last-step run leaves. The
  node features are read through two windows (a 4096-row tile per reduction step and a 1024-row
  tile per row tile): the proof data give each window one half of that array's share.
-/
import proofs.«136598_j14061722927248_2_alg».proof.Proof.KIRunLast

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, at a grid point -/

theorem hFirst_of (t : Fin cfg0.N) (h : t.val % 4 = 0) : condFirst (grid0.coords t) := (hcondFirst t).mpr h
theorem nFirst_of (t : Fin cfg0.N) (h : ¬t.val % 4 = 0) : ¬condFirst (grid0.coords t) := fun h' => h ((hcondFirst t).mp h')
theorem hLast_of (t : Fin cfg0.N) (h : t.val % 4 = 3) : condLast (grid0.coords t) := (hcondLast t).mpr h
theorem nLast_of (t : Fin cfg0.N) (h : ¬t.val % 4 = 3) : ¬condLast (grid0.coords t) := fun h' => h ((hcondLast t).mp h')

/-- The first-step run at point `t`, on the point's staging memrefs and tiles. -/
abbrev runFirstAt (c : Dev nD) (t : Fin cfg0.N) (h0 : t.val % 4 = 0) (h3 : ¬t.val % 4 = 3) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (hFirst_of t h0) (nLast_of t h3) (iblk m c 0 t) (iblk m c 1 t)
/-- The middle-step run at point `t`, the accumulator at `xs`. -/
abbrev runMidAt (c : Dev nD) (t : Fin cfg0.N) (h0 : ¬t.val % 4 = 0) (h3 : ¬t.val % 4 = 3) (xs : Vec F S1024x32 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (nFirst_of t h0) (nLast_of t h3) (iblk m c 0 t) (iblk m c 1 t) xs
/-- The last-step run at point `t`, the accumulator at `xs`. -/
abbrev runLastAt (c : Dev nD) (t : Fin cfg0.N) (h0 : ¬t.val % 4 = 0) (h3 : t.val % 4 = 3) (xs : Vec F S1024x32 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) (nFirst_of t h0) (hLast_of t h3) (iblk m c 0 t) (iblk m c 1 t) (iblk m c 2 t) (iblk m c 3 t) (iblk m c 4 t) (iblk m c 5 t) (iblk m c 6 t) xs

/-- The first-step run's pieces cover the accumulator. -/
theorem accFirst_cover (c : Dev nD) (t : Fin cfg0.N) (h0 : t.val % 4 = 0) (h3 : ¬t.val % 4 = 3) (y : S1024x32.Idx) :
    ∃ pc ∈ (runFirstAt m c t h0 h3).1, y ∈ pc.1.set :=
  View.cover_of_tiledL (runFirstAt m c t h0 h3).1 S1024x32.size (by sl_kernel_rfl) y
/-- The accumulator after a first step. -/
def accFirst (c : Dev nD) (t : Fin cfg0.N) (h0 : t.val % 4 = 0) (h3 : ¬t.val % 4 = 3) : Vec F S1024x32 .f32 :=
  accV.read (Elt F) (accV.writes (Elt F) accV.junk (runFirstAt m c t h0 h3).1)

theorem accMid_cover (c : Dev nD) (t : Fin cfg0.N) (h0 : ¬t.val % 4 = 0) (h3 : ¬t.val % 4 = 3) (xs : Vec F S1024x32 .f32) (y : S1024x32.Idx) :
    ∃ pc ∈ (runMidAt m c t h0 h3 xs).1, y ∈ pc.1.set :=
  View.cover_of_tiledL (runMidAt m c t h0 h3 xs).1 S1024x32.size (by sl_kernel_rfl) y
/-- The accumulator after a middle step. -/
def accMid (c : Dev nD) (t : Fin cfg0.N) (h0 : ¬t.val % 4 = 0) (h3 : ¬t.val % 4 = 3) (xs : Vec F S1024x32 .f32) : Vec F S1024x32 .f32 :=
  accV.read (Elt F) (accV.writes (Elt F) accV.junk (runMidAt m c t h0 h3 xs).1)

theorem accLast_cover (c : Dev nD) (t : Fin cfg0.N) (h0 : ¬t.val % 4 = 0) (h3 : t.val % 4 = 3) (xs : Vec F S1024x32 .f32) (y : S1024x32.Idx) :
    ∃ pc ∈ (runLastAt m c t h0 h3 xs).2.1, y ∈ pc.1.set :=
  View.cover_of_tiledL (runLastAt m c t h0 h3 xs).2.1 S1024x32.size (by sl_kernel_rfl) y
/-- The accumulator after a last step. -/
def accLast (c : Dev nD) (t : Fin cfg0.N) (h0 : ¬t.val % 4 = 0) (h3 : t.val % 4 = 3) (xs : Vec F S1024x32 .f32) : Vec F S1024x32 .f32 :=
  accV.read (Elt F) (accV.writes (Elt F) accV.junk (runLastAt m c t h0 h3 xs).2.1)

theorem outLast_cover (c : Dev nD) (t : Fin cfg0.N) (h0 : ¬t.val % 4 = 0) (h3 : t.val % 4 = 3) (xs : Vec F S1024x32 .f32) (y : S1024x32.Idx) :
    ∃ pc ∈ (runLastAt m c t h0 h3 xs).1, y ∈ pc.1.set :=
  View.cover_of_tiledL (runLastAt m c t h0 h3 xs).1 S1024x32.size (by sl_kernel_rfl) y
/-- The output tile after a last step. -/
def outLast (c : Dev nD) (t : Fin cfg0.N) (h0 : ¬t.val % 4 = 0) (h3 : t.val % 4 = 3) (xs : Vec F S1024x32 .f32) : Vec F S1024x32 .f32 :=
  outV.read (Elt F) (outV.writes (Elt F) outV.junk (runLastAt m c t h0 h3 xs).1)

/-- Away from a last step nothing is stored into the output tile's buffer: a placeholder nothing consults (the
    window is neither written back there nor read at the next point). -/
def outNone : Vec F S1024x32 .f32 := outV.read (Elt F) outV.junk

/-! ## The state after each point -/

/-- What the output tile's buffer and the accumulator hold after the body at position `n`. -/
def stateAt (c : Dev nD) : (n : ℕ) → n < cfg0.N → Vec F S1024x32 .f32 × Vec F S1024x32 .f32
  | 0, hn => (outNone, accFirst m c ⟨0, hn⟩ (Nat.zero_mod _) (by show ¬(0 % 4 = 3); decide))
  | n + 1, hn =>
    if h0 : (n + 1) % 4 = 0 then (outNone, accFirst m c ⟨n + 1, hn⟩ h0 (by show ¬((n + 1) % 4 = 3); omega))
    else if h3 : (n + 1) % 4 = 3 then
      (outLast m c ⟨n + 1, hn⟩ h0 h3 (stateAt c n (Nat.lt_of_succ_lt hn)).2, accLast m c ⟨n + 1, hn⟩ h0 h3 (stateAt c n (Nat.lt_of_succ_lt hn)).2)
    else (outNone, accMid m c ⟨n + 1, hn⟩ h0 h3 (stateAt c n (Nat.lt_of_succ_lt hn)).2)

theorem stateAt_first (c : Dev nD) (t : Fin cfg0.N) (h0 : t.val % 4 = 0) (h3 : ¬t.val % 4 = 3) :
    stateAt m c t.val t.isLt = (outNone, accFirst m c t h0 h3) := by
  obtain ⟨n, hn⟩ := t
  cases n with
  | zero => rfl
  | succ n => exact dif_pos h0

theorem stateAt_mid (c : Dev nD) (t : Fin cfg0.N) (h0 : ¬t.val % 4 = 0) (h3 : ¬t.val % 4 = 3) :
    stateAt m c t.val t.isLt = (outNone, accMid m c t h0 h3 (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h3)

theorem stateAt_last (c : Dev nD) (t : Fin cfg0.N) (h0 : ¬t.val % 4 = 0) (h3 : t.val % 4 = 3) :
    stateAt m c t.val t.isLt = (outLast m c t h0 h3 (stateAt m c (t.val - 1) (Nat.lt_of_le_of_lt (Nat.sub_le _ _) t.isLt)).2,
      accLast m c t h0 h3 (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h3)

/-! ## The invariant and the proof data -/

/-- Before the first point the class invariant (the accumulator at anything); afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-- The proof data on core `c`: the arrays as the region finds them; each input's buffer at its block after the
    body, the output's at `stateAt`; the node features' array shared half and half between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stateAt m c t.val t.isLt).1
  Φ t := PhiS m c t.val (Nat.le_of_lt_succ t.isLt)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (stateAt m c t.val t.isLt).1 := by dsimp only [dats]

theorem before0 (c : Dev nD) (t : Fin cfg0.N) (d) : (dats m 0 c).before 0 t d = iblk m c 0 t :=
  beforeIn0 m (dats m 0 c) (A_eq m c 0) (after0 m c) t d
theorem before1 (c : Dev nD) (t : Fin cfg0.N) (d) : (dats m 0 c).before 1 t d = iblk m c 1 t :=
  beforeIn1 m (dats m 0 c) (A_eq m c 1) (after1 m c) t d
theorem before2 (c : Dev nD) (t : Fin cfg0.N) (d) : (dats m 0 c).before 2 t d = iblk m c 2 t :=
  beforeIn2 m (dats m 0 c) (A_eq m c 2) (after2 m c) t d
theorem before3 (c : Dev nD) (t : Fin cfg0.N) (d) : (dats m 0 c).before 3 t d = iblk m c 3 t :=
  beforeIn3 m (dats m 0 c) (A_eq m c 3) (after3 m c) t d
theorem before4 (c : Dev nD) (t : Fin cfg0.N) (d) : (dats m 0 c).before 4 t d = iblk m c 4 t :=
  beforeIn4 m (dats m 0 c) (A_eq m c 4) (after4 m c) t d
theorem before5 (c : Dev nD) (t : Fin cfg0.N) (d) : (dats m 0 c).before 5 t d = iblk m c 5 t :=
  beforeIn5 m (dats m 0 c) (A_eq m c 5) (after5 m c) t d
theorem before6 (c : Dev nD) (t : Fin cfg0.N) (d) : (dats m 0 c).before 6 t d = iblk m c 6 t :=
  beforeIn6 m (dats m 0 c) (A_eq m c 6) (after6 m c) t d

/-- A window live at a point is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

end Cert.KernelIdeal.Frm

end
-- ==== Proof.KIPieces.lean ====
/-
  What the runs leave, as the body's arithmetic: after a first step the accumulator holds the
  step's tile product added to the cleared accumulator; after a later step, the tile product added
  to what the step before left; and at a last step the output tile is the two affine layers of the
  finished accumulator and of the node's own rows. Each is read off the pieces the run found: the
  last store into a buffer covers it whole, so the buffer holds that store's value, and a whole
  load reads a buffer's contents.
-/
import proofs.«136598_j14061722927248_2_alg».proof.Proof.KIFrameData
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem zeros2 : (![0, 0] : Fin 2 → Nat) = fun _ => 0 := by
  funext a; match a with | ⟨0, _⟩ => rfl | ⟨1, _⟩ => rfl

/-- After a first reduction step: the tile product added to the cleared accumulator. -/
theorem accFirst_eq (c : Dev nD) (t : Fin cfg0.N) (h0 : t.val % 4 = 0) (h3 : ¬t.val % 4 = 3) :
    accFirst m c t h0 h3 = k0_pay2 (F := F) (iblk m c 0 t) (k0_pay1 (F := F)) (iblk m c 1 t) := by
  unfold accFirst
  rw [View.read_writes_eq_canon _ _ _ (accFirst_cover m c t h0 h3)]
  unfold runFirstAt runFirst
  dsimp only
  sl_unfold_words
  refine (View.canon_cons_unit_zero (S := S1024x32) zeros2 _ _ _).trans ?_
  simp only [View.readAt_eq_ld, Memref.IsWhole.read_unread, View.ld_unit_zero (S := S1024x4096) zeros2, View.ld_unit_zero (S := S4096x32) zeros2,
    View.readCov_unit_zero (S := S1024x32) _ zeros2]

/-- After a middle reduction step: the tile product added to what the step before left. -/
theorem accMid_eq (c : Dev nD) (t : Fin cfg0.N) (h0 : ¬t.val % 4 = 0) (h3 : ¬t.val % 4 = 3) (xs : Vec F S1024x32 .f32) :
    accMid m c t h0 h3 xs = k0_pay2 (F := F) (iblk m c 0 t) xs (iblk m c 1 t) := by
  unfold accMid
  rw [View.read_writes_eq_canon _ _ _ (accMid_cover m c t h0 h3 xs)]
  unfold runMidAt runMid
  dsimp only
  sl_unfold_words
  refine (View.canon_cons_unit_zero (S := S1024x32) zeros2 _ _ _).trans ?_
  simp only [View.readAt_eq_ld, Memref.IsWhole.read_unread, View.ld_unit_zero (S := S1024x4096) zeros2, View.ld_unit_zero (S := S4096x32) zeros2,
    View.ld_unit_zero (S := S1024x32) zeros2]
  have hx : View.read (Elt F) (View.whole cc0_scratch0) ((Memref.isWhole_whole cc0_scratch0 : accM.IsWhole).unread xs) = xs := by
    have h := (Memref.isWhole_whole cc0_scratch0 : accM.IsWhole).read_unread (Val := Elt F) xs
    simpa only [accM, Memref.view_whole] using h
  exact congrArg (fun z => k0_pay2 (F := F) (iblk m c 0 t) z (iblk m c 1 t)) hx

/-- After a last reduction step the accumulator is as after a middle one. -/
theorem accLast_eq (c : Dev nD) (t : Fin cfg0.N) (h0 : ¬t.val % 4 = 0) (h3 : t.val % 4 = 3) (xs : Vec F S1024x32 .f32) :
    accLast m c t h0 h3 xs = k0_pay2 (F := F) (iblk m c 0 t) xs (iblk m c 1 t) := by
  unfold accLast
  rw [View.read_writes_eq_canon _ _ _ (accLast_cover m c t h0 h3 xs)]
  unfold runLastAt runLast
  dsimp only
  sl_unfold_words
  refine (View.canon_cons_unit_zero (S := S1024x32) zeros2 _ _ _).trans ?_
  simp only [View.readAt_eq_ld, Memref.IsWhole.read_unread, View.ld_unit_zero (S := S1024x4096) zeros2, View.ld_unit_zero (S := S4096x32) zeros2,
    View.ld_unit_zero (S := S1024x32) zeros2]
  have hx : View.read (Elt F) (View.whole cc0_scratch0) ((Memref.isWhole_whole cc0_scratch0 : accM.IsWhole).unread xs) = xs := by
    have h := (Memref.isWhole_whole cc0_scratch0 : accM.IsWhole).read_unread (Val := Elt F) xs
    simpa only [accM, Memref.view_whole] using h
  exact congrArg (fun z => k0_pay2 (F := F) (iblk m c 0 t) z (iblk m c 1 t)) hx

/-- The output tile at a last reduction step: the two layers of the finished accumulator and of the node's rows. -/
theorem outLast_eq (c : Dev nD) (t : Fin cfg0.N) (h0 : ¬t.val % 4 = 0) (h3 : t.val % 4 = 3) (xs : Vec F S1024x32 .f32) :
    outLast m c t h0 h3 xs = k0_pay3 (F := F) (k0_pay2 (F := F) (iblk m c 0 t) xs (iblk m c 1 t)) (iblk m c 3 t) (iblk m c 4 t) (iblk m c 2 t) (iblk m c 5 t) (iblk m c 6 t) := by
  unfold outLast
  rw [View.read_writes_eq_canon _ _ _ (outLast_cover m c t h0 h3 xs)]
  unfold runLastAt runLast
  dsimp only
  sl_unfold_words
  refine (View.canon_cons_unit_zero (S := S1024x32) zeros2 _ _ _).trans ?_
  simp only [View.readAt_eq_ld, Memref.IsWhole.read_unread, View.ld_unit_zero (S := S1024x4096) zeros2, View.ld_unit_zero (S := S4096x32) zeros2,
    View.ld_unit_zero (S := S1024x32) zeros2, View.ld_unit_zero (S := S32x32) zeros2, View.ld_unit_zero (S := S1x32) zeros2,
    View.readCov_unit_zero (S := S1024x32) _ zeros2]
  have hx : View.read (Elt F) (View.whole cc0_scratch0) ((Memref.isWhole_whole cc0_scratch0 : accM.IsWhole).unread xs) = xs := by
    have h := (Memref.isWhole_whole cc0_scratch0 : accM.IsWhole).read_unread (Val := Elt F) xs
    simpa only [accM, Memref.view_whole] using h
  exact congrArg (fun z => k0_pay3 (F := F) (k0_pay2 (F := F) (iblk m c 0 t) z (iblk m c 1 t)) (iblk m c 3 t) (iblk m c 4 t) (iblk m c 2 t) (iblk m c 5 t) (iblk m c 6 t)) hx

end Cert.KernelIdeal.Frm

end
-- ==== Proof.KIIndex.lean ====
/-
  The windows' block indices over the grid, decided once. Point `t` is row tile `t / 4` and reduction step `t % 4`: the adjacency tile is rows
  `1024 (t / 4) + p`, columns `4096 (t % 4) + k`; the feature tile of the reduction is rows
  `4096 (t % 4) + k`; the node's own rows and the output tile are rows `1024 (t / 4) + p`; the
  weights and biases are whole.
-/
import proofs.«136598_j14061722927248_2_alg».proof.Proof.KIFrameBase
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The block indices over the grid -/

theorem index0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem index1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem index2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)

theorem lt64 (t : Fin cfg0.N) : t.val < 64 := lt_of_lt_of_eq t.isLt (show cfg0.N = 64 from N_0)

end Cert.KernelIdeal.Frm

end
-- ==== Proof.KIBlocks.lean ====
/-
  Each window's block at a grid point, read at an index, is its array at that index moved by the
  block's offset. Point `t` is row tile `t / 4` and reduction step `t % 4`: the adjacency tile is rows
  `1024 (t / 4) + p`, columns `4096 (t % 4) + k`; the feature tile of the reduction is rows
  `4096 (t % 4) + k`; the node's own rows are rows `1024 (t / 4) + p`; the weights and biases are
  whole. Each is stated first for any contents of the window's array, then at the region-entry ones.
-/
import proofs.«136598_j14061722927248_2_alg».proof.Proof.KIIndex

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The adjacency tile. -/
theorem blk0_read (t : Fin cfg0.N) (A : ((cfg0.win 0).blk t).view.ty.Contents (Elt F)) (a0 : Fin 1024) (a1 : Fin 4096) :
    ((cfg0.win 0).blk t).view.read (Elt F) A (ix2 a0 a1) = A (ix2 (⟨t.val / 4 * 1024 + a0.val, by have := lt64 t; omega⟩ : Fin 16384) (⟨t.val % 4 * 4096 + a1.val, by omega⟩ : Fin 16384)) := by
  rw [View.read_apply]
  refine congrArg A (funext fun a => Fin.ext ?_)
  match a with
  | ⟨0, _⟩ => show win0_0.index t 0 * 1024 + 1 * a0.val = _; rw [(index0 t).1]; show _ = t.val / 4 * 1024 + a0.val; omega
  | ⟨1, _⟩ => show win0_0.index t 1 * 4096 + 1 * a1.val = _; rw [(index0 t).2]; show _ = t.val % 4 * 4096 + a1.val; omega
theorem iblk0_apply (c : Dev nD) (t : Fin cfg0.N) (a0 : Fin 1024) (a1 : Fin 4096) :
    iblk m c 0 t (ix2 a0 a1) = V m c main_v21 (ix2 (⟨t.val / 4 * 1024 + a0.val, by have := lt64 t; omega⟩ : Fin 16384) (⟨t.val % 4 * 4096 + a1.val, by omega⟩ : Fin 16384)) := by
  unfold iblk; exact blk0_read t _ a0 a1

/-- The feature tile of the reduction step. -/
theorem blk1_read (t : Fin cfg0.N) (A : ((cfg0.win 1).blk t).view.ty.Contents (Elt F)) (a0 : Fin 4096) (a1 : Fin 32) :
    ((cfg0.win 1).blk t).view.read (Elt F) A (ix2 a0 a1) = A (ix2 (⟨t.val % 4 * 4096 + a0.val, by omega⟩ : Fin 16384) a1) := by
  rw [View.read_apply]
  refine congrArg A (funext fun a => Fin.ext ?_)
  match a with
  | ⟨0, _⟩ => show win0_1.index t 0 * 4096 + 1 * a0.val = _; rw [(index1 t).1]; show _ = t.val % 4 * 4096 + a0.val; omega
  | ⟨1, _⟩ => show win0_1.index t 1 * 32 + 1 * a1.val = _; rw [(index1 t).2]; show _ = a1.val; omega
theorem iblk1_apply (c : Dev nD) (t : Fin cfg0.N) (a0 : Fin 4096) (a1 : Fin 32) :
    iblk m c 1 t (ix2 a0 a1) = V m c main_arg0 (ix2 (⟨t.val % 4 * 4096 + a0.val, by omega⟩ : Fin 16384) a1) := by
  unfold iblk; exact blk1_read t _ a0 a1

/-- The node's own rows. -/
theorem blk2_read (t : Fin cfg0.N) (A : ((cfg0.win 2).blk t).view.ty.Contents (Elt F)) (a0 : Fin 1024) (a1 : Fin 32) :
    ((cfg0.win 2).blk t).view.read (Elt F) A (ix2 a0 a1) = A (ix2 (⟨t.val / 4 * 1024 + a0.val, by have := lt64 t; omega⟩ : Fin 16384) a1) := by
  rw [View.read_apply]
  refine congrArg A (funext fun a => Fin.ext ?_)
  match a with
  | ⟨0, _⟩ => show win0_2.index t 0 * 1024 + 1 * a0.val = _; rw [(index2 t).1]; show _ = t.val / 4 * 1024 + a0.val; omega
  | ⟨1, _⟩ => show win0_2.index t 1 * 32 + 1 * a1.val = _; rw [(index2 t).2]; show _ = a1.val; omega
theorem iblk2_apply (c : Dev nD) (t : Fin cfg0.N) (a0 : Fin 1024) (a1 : Fin 32) :
    iblk m c 2 t (ix2 a0 a1) = V m c main_arg0 (ix2 (⟨t.val / 4 * 1024 + a0.val, by have := lt64 t; omega⟩ : Fin 16384) a1) := by
  unfold iblk; exact blk2_read t _ a0 a1

/-- The aggregate layer's weights (already transposed by the host), whole. -/
theorem blk3_read (t : Fin cfg0.N) (A : ((cfg0.win 3).blk t).view.ty.Contents (Elt F)) (a0 : Fin 32) (a1 : Fin 32) :
    ((cfg0.win 3).blk t).view.read (Elt F) A (ix2 a0 a1) = A (ix2 a0 a1) := by
  rw [View.read_apply]
  refine congrArg A (funext fun a => Fin.ext ?_)
  match a with
  | ⟨0, _⟩ => show win0_3.index t 0 * 32 + 1 * a0.val = _; rw [(index3 t).1]; show _ = a0.val; omega
  | ⟨1, _⟩ => show win0_3.index t 1 * 32 + 1 * a1.val = _; rw [(index3 t).2]; show _ = a1.val; omega
theorem iblk3_apply (c : Dev nD) (t : Fin cfg0.N) (a0 : Fin 32) (a1 : Fin 32) :
    iblk m c 3 t (ix2 a0 a1) = V m c main_v22 (ix2 a0 a1) := by
  unfold iblk; exact blk3_read t _ a0 a1

/-- The aggregate layer's bias row, whole. -/
theorem blk4_read (t : Fin cfg0.N) (A : ((cfg0.win 4).blk t).view.ty.Contents (Elt F)) (a0 : Fin 1) (a1 : Fin 32) :
    ((cfg0.win 4).blk t).view.read (Elt F) A (ix2 a0 a1) = A (ix2 a0 a1) := by
  rw [View.read_apply]
  refine congrArg A (funext fun a => Fin.ext ?_)
  match a with
  | ⟨0, _⟩ => show win0_4.index t 0 * 1 + 1 * a0.val = _; rw [(index4 t).1]; show _ = a0.val; omega
  | ⟨1, _⟩ => show win0_4.index t 1 * 32 + 1 * a1.val = _; rw [(index4 t).2]; show _ = a1.val; omega
theorem iblk4_apply (c : Dev nD) (t : Fin cfg0.N) (a0 : Fin 1) (a1 : Fin 32) :
    iblk m c 4 t (ix2 a0 a1) = V m c main_v24 (ix2 a0 a1) := by
  unfold iblk; exact blk4_read t _ a0 a1

/-- The update layer's weights (already transposed by the host), whole. -/
theorem blk5_read (t : Fin cfg0.N) (A : ((cfg0.win 5).blk t).view.ty.Contents (Elt F)) (a0 : Fin 32) (a1 : Fin 32) :
    ((cfg0.win 5).blk t).view.read (Elt F) A (ix2 a0 a1) = A (ix2 a0 a1) := by
  rw [View.read_apply]
  refine congrArg A (funext fun a => Fin.ext ?_)
  match a with
  | ⟨0, _⟩ => show win0_5.index t 0 * 32 + 1 * a0.val = _; rw [(index5 t).1]; show _ = a0.val; omega
  | ⟨1, _⟩ => show win0_5.index t 1 * 32 + 1 * a1.val = _; rw [(index5 t).2]; show _ = a1.val; omega
theorem iblk5_apply (c : Dev nD) (t : Fin cfg0.N) (a0 : Fin 32) (a1 : Fin 32) :
    iblk m c 5 t (ix2 a0 a1) = V m c main_v23 (ix2 a0 a1) := by
  unfold iblk; exact blk5_read t _ a0 a1

/-- The update layer's bias row, whole. -/
theorem blk6_read (t : Fin cfg0.N) (A : ((cfg0.win 6).blk t).view.ty.Contents (Elt F)) (a0 : Fin 1) (a1 : Fin 32) :
    ((cfg0.win 6).blk t).view.read (Elt F) A (ix2 a0 a1) = A (ix2 a0 a1) := by
  rw [View.read_apply]
  refine congrArg A (funext fun a => Fin.ext ?_)
  match a with
  | ⟨0, _⟩ => show win0_6.index t 0 * 1 + 1 * a0.val = _; rw [(index6 t).1]; show _ = a0.val; omega
  | ⟨1, _⟩ => show win0_6.index t 1 * 32 + 1 * a1.val = _; rw [(index6 t).2]; show _ = a1.val; omega
theorem iblk6_apply (c : Dev nD) (t : Fin cfg0.N) (a0 : Fin 1) (a1 : Fin 32) :
    iblk m c 6 t (ix2 a0 a1) = V m c main_v25 (ix2 a0 a1) := by
  unfold iblk; exact blk6_read t _ a0 a1

/-- The output tile: rows `1024 (t / 4) + p` of the result. -/
theorem blk7_read (t : Fin cfg0.N) (A : ((cfg0.win 7).blk t).view.ty.Contents (Elt F)) (a0 : Fin 1024) (a1 : Fin 32) :
    ((cfg0.win 7).blk t).view.read (Elt F) A (ix2 a0 a1) = A (ix2 (⟨t.val / 4 * 1024 + a0.val, by have := lt64 t; omega⟩ : Fin 16384) a1) := by
  rw [View.read_apply]
  refine congrArg A (funext fun a => Fin.ext ?_)
  match a with
  | ⟨0, _⟩ => show win0_7.index t 0 * 1024 + 1 * a0.val = _; rw [(index7 t).1]; show _ = t.val / 4 * 1024 + a0.val; omega
  | ⟨1, _⟩ => show win0_7.index t 1 * 32 + 1 * a1.val = _; rw [(index7 t).2]; show _ = a1.val; omega

/-- The output window's blocks are never cut. -/
theorem xsize7 : ∀ t : Fin cfg0.N, win0_7.xsize (grid0.coords t) (0 : Fin 2) = 1024 ∧ win0_7.xsize (grid0.coords t) (1 : Fin 2) = 32 :=
  (by decide +kernel : ∀ t : Fin grid0.N, win0_7.xsize (grid0.coords t) (0 : Fin 2) = 1024 ∧ win0_7.xsize (grid0.coords t) (1 : Fin 2) = 32)

end Cert.KernelIdeal.Frm

end
-- ==== Proof.KernelPay.lean ====
/-
  The arithmetic of the kernel's body on the extended reals, read one element at a time.

  The body writes three values. The first resets the accumulator block: every element is 0. The
  second adds to the accumulator block the product of a 1024 x 4096 adjacency tile with a 4096 x 32
  feature tile: element (p, q) is the accumulator at (p, q) plus the sum over k of the tile's
  (p, k) entry times the features' (k, q) entry; widening the tile's entries changes nothing on the
  extended reals. The third, at the last step, is the sum of two affine layers, each a 1024 x 32 block
  times a 32 x 32 matrix plus a bias row of 32 repeated down the 1024 rows.
-/
import proofs.«136598_j14061722927248_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Gnn.Pay

open Cert.KernelIdeal Cert.KernelIdeal.Gen Idealize.ShloMosaic Idealize.ShloMosaic.ValueIdx

variable [Cert.KernelIdeal.Facts]

/-- The accumulator's reset: the zero word broadcast over the block is the extended real 0 everywhere. -/
theorem pay1_apply (p : Fin 1024) (q : Fin 32) : k0_pay1 (F := Ideal) (ix2 p q) = 0 := by
  unfold k0_pay1
  rw [shapeCast_self]
  exact Ideal.ofBits_zero_f32

/-! ## The 1024 x 4096 by 4096 x 32 product

The dimension numbers contract the left operand's axis 1 with the right operand's axis 0; the left
operand's axis 0 and the right operand's axis 1 are the result's two axes. -/

/-- The left operand's row is the result's row. -/
theorem lhsA_0 (i : S1024x32.Idx) (k : dot_S1024x4096_S4096x32_S1024x32_1_0_0_1_n_n.contr.Idx) :
    (dot_S1024x4096_S4096x32_S1024x32_1_0_0_1_n_n.lhsIdx i k 0).val = (i 0).val := by
  unfold DotDims.lhsIdx
  rw [dif_neg (show ¬(0 : Fin S1024x4096.rank) ∈ dot_S1024x4096_S4096x32_S1024x32_1_0_0_1_n_n.lhsBatch by decide),
    dif_pos (show (0 : Fin S1024x4096.rank) ∈ dot_S1024x4096_S4096x32_S1024x32_1_0_0_1_n_n.lhsNonContracting by decide)]
  rfl

/-- The right operand's column is the result's column. -/
theorem rhsA_1 (i : S1024x32.Idx) (k : dot_S1024x4096_S4096x32_S1024x32_1_0_0_1_n_n.contr.Idx) :
    (dot_S1024x4096_S4096x32_S1024x32_1_0_0_1_n_n.rhsIdx i k 1).val = (i 1).val := by
  unfold DotDims.rhsIdx
  rw [dif_neg (show ¬(1 : Fin S4096x32.rank) ∈ dot_S1024x4096_S4096x32_S1024x32_1_0_0_1_n_n.rhsBatch by decide),
    dif_pos (show (1 : Fin S4096x32.rank) ∈ dot_S1024x4096_S4096x32_S1024x32_1_0_0_1_n_n.rhsNonContracting by decide)]
  rfl

/-- The product into a zero accumulator, read at `(p, q)`: the sum over the 4096 contracted positions
    of row `p` of the left operand times column `q` of the right one. -/
theorem matmulA_apply (a : FVec Ideal S1024x4096 .f32) (b : FVec Ideal S4096x32 .f32) (p : Fin 1024) (q : Fin 32) :
    matmul dot_S1024x4096_S4096x32_S1024x32_1_0_0_1_n_n none a b (constant (F := Ideal) S1024x32 .f32 0x00000000#32) (ix2 p q)
      = ∑ k : Fin 4096, a (ix2 p k) * b (ix2 k q) := by
  simp only [matmul]
  rw [Ideal.matmul_constant_zero_apply,
    ← Equiv.sum_comp (contrEquiv1 dot_S1024x4096_S4096x32_S1024x32_1_0_0_1_n_n 4096 rfl rfl).symm]
  refine Finset.sum_congr rfl fun k _ => ?_
  have hk := contrEquiv1_symm_val dot_S1024x4096_S4096x32_S1024x32_1_0_0_1_n_n 4096 rfl rfl k
  have el : dot_S1024x4096_S4096x32_S1024x32_1_0_0_1_n_n.lhsIdx (ix2 p q)
      ((contrEquiv1 dot_S1024x4096_S4096x32_S1024x32_1_0_0_1_n_n 4096 rfl rfl).symm k) = ix2 p k :=
    funext fun c => Fin.ext (by
      match c with
      | ⟨0, _⟩ => exact lhsA_0 _ _
      | ⟨1, _⟩ => exact (dot_S1024x4096_S4096x32_S1024x32_1_0_0_1_n_n.lhsIdx_val_of_single rfl _ _).trans hk)
  have er : dot_S1024x4096_S4096x32_S1024x32_1_0_0_1_n_n.rhsIdx (ix2 p q)
      ((contrEquiv1 dot_S1024x4096_S4096x32_S1024x32_1_0_0_1_n_n 4096 rfl rfl).symm k) = ix2 k q :=
    funext fun c => Fin.ext (by
      match c with
      | ⟨0, _⟩ => exact (dot_S1024x4096_S4096x32_S1024x32_1_0_0_1_n_n.rhsIdx_val_of_single rfl _ _).trans hk
      | ⟨1, _⟩ => exact rhsA_1 _ _)
  rw [el, er]

/-- The accumulation step: the accumulator plus the adjacency tile's rows against the feature
    tile's columns. The widening of the adjacency tile is the identity on the extended reals. -/
theorem pay2_apply (v3 : Vec Ideal S1024x4096 .bf16) (v6 : Vec Ideal S1024x32 .f32) (v7 : Vec Ideal S4096x32 .f32)
    (p : Fin 1024) (q : Fin 32) :
    k0_pay2 (F := Ideal) v3 v6 v7 (ix2 p q) = v6 (ix2 p q) + ∑ k : Fin 4096, v3 (ix2 p k) * v7 (ix2 k q) := by
  unfold k0_pay2
  rw [shapeCast_self, shapeCast_self, addf_apply, matmulA_apply]
  rfl

/-! ## The 1024 x 32 by 32 x 32 product -/

/-- The left operand's row is the result's row. -/
theorem lhsB_0 (i : S1024x32.Idx) (k : dot_S1024x32_S32x32_S1024x32_1_0_0_1_n_n.contr.Idx) :
    (dot_S1024x32_S32x32_S1024x32_1_0_0_1_n_n.lhsIdx i k 0).val = (i 0).val := by
  unfold DotDims.lhsIdx
  rw [dif_neg (show ¬(0 : Fin S1024x32.rank) ∈ dot_S1024x32_S32x32_S1024x32_1_0_0_1_n_n.lhsBatch by decide),
    dif_pos (show (0 : Fin S1024x32.rank) ∈ dot_S1024x32_S32x32_S1024x32_1_0_0_1_n_n.lhsNonContracting by decide)]
  rfl

/-- The right operand's column is the result's column. -/
theorem rhsB_1 (i : S1024x32.Idx) (k : dot_S1024x32_S32x32_S1024x32_1_0_0_1_n_n.contr.Idx) :
    (dot_S1024x32_S32x32_S1024x32_1_0_0_1_n_n.rhsIdx i k 1).val = (i 1).val := by
  unfold DotDims.rhsIdx
  rw [dif_neg (show ¬(1 : Fin S32x32.rank) ∈ dot_S1024x32_S32x32_S1024x32_1_0_0_1_n_n.rhsBatch by decide),
    dif_pos (show (1 : Fin S32x32.rank) ∈ dot_S1024x32_S32x32_S1024x32_1_0_0_1_n_n.rhsNonContracting by decide)]
  rfl

/-- The product into a zero accumulator, read at `(p, q)`: the sum over the 32 contracted positions
    of row `p` of the left operand times column `q` of the right one. -/
theorem matmulB_apply (a : FVec Ideal S1024x32 .f32) (b : FVec Ideal S32x32 .f32) (p : Fin 1024) (q : Fin 32) :
    matmul dot_S1024x32_S32x32_S1024x32_1_0_0_1_n_n none a b (constant (F := Ideal) S1024x32 .f32 0x00000000#32) (ix2 p q)
      = ∑ k : Fin 32, a (ix2 p k) * b (ix2 k q) := by
  simp only [matmul]
  rw [Ideal.matmul_constant_zero_apply,
    ← Equiv.sum_comp (contrEquiv1 dot_S1024x32_S32x32_S1024x32_1_0_0_1_n_n 32 rfl rfl).symm]
  refine Finset.sum_congr rfl fun k _ => ?_
  have hk := contrEquiv1_symm_val dot_S1024x32_S32x32_S1024x32_1_0_0_1_n_n 32 rfl rfl k
  have el : dot_S1024x32_S32x32_S1024x32_1_0_0_1_n_n.lhsIdx (ix2 p q)
      ((contrEquiv1 dot_S1024x32_S32x32_S1024x32_1_0_0_1_n_n 32 rfl rfl).symm k) = ix2 p k :=
    funext fun c => Fin.ext (by
      match c with
      | ⟨0, _⟩ => exact lhsB_0 _ _
      | ⟨1, _⟩ => exact (dot_S1024x32_S32x32_S1024x32_1_0_0_1_n_n.lhsIdx_val_of_single rfl _ _).trans hk)
  have er : dot_S1024x32_S32x32_S1024x32_1_0_0_1_n_n.rhsIdx (ix2 p q)
      ((contrEquiv1 dot_S1024x32_S32x32_S1024x32_1_0_0_1_n_n 32 rfl rfl).symm k) = ix2 k q :=
    funext fun c => Fin.ext (by
      match c with
      | ⟨0, _⟩ => exact (dot_S1024x32_S32x32_S1024x32_1_0_0_1_n_n.rhsIdx_val_of_single rfl _ _).trans hk
      | ⟨1, _⟩ => exact rhsB_1 _ _)
  rw [el, er]

/-- The last step's value: the layer of the block's own rows (`v24` against `v25`, plus the bias row
    `v28`) plus the layer of the accumulated rows (`v16` against `v17`, plus the bias row `v20`),
    in that order. Each bias is one row of 32, read at the column whatever the row. -/
theorem pay3_apply (v16 : Vec Ideal S1024x32 .f32) (v17 : Vec Ideal S32x32 .f32) (v20 : Vec Ideal S1x32 .f32)
    (v24 : Vec Ideal S1024x32 .f32) (v25 : Vec Ideal S32x32 .f32) (v28 : Vec Ideal S1x32 .f32)
    (p : Fin 1024) (q : Fin 32) :
    k0_pay3 (F := Ideal) v16 v17 v20 v24 v25 v28 (ix2 p q)
      = ((∑ k : Fin 32, v24 (ix2 p k) * v25 (ix2 k q)) + v28 (ix2 (0 : Fin 1) q))
        + ((∑ k : Fin 32, v16 (ix2 p k) * v17 (ix2 k q)) + v20 (ix2 (0 : Fin 1) q)) := by
  unfold k0_pay3
  rw [shapeCast_self, shapeCast_self, shapeCast_self, shapeCast_self, addf_apply, addf_apply, addf_apply,
    matmulB_apply, matmulB_apply, broadcastTo_1b_ab_apply, broadcastTo_1b_ab_apply]

end Cert.Gnn.Pay

end
-- ==== Proof.Spec.lean ====
/-
  The function both programs compute, on the extended reals, stated once over the argument arrays.

  A graph on 16384 nodes is given by 524288 edges (a 2 x 524288 table of node numbers, a negative
  number counting from the end, as jnp reads an index). Nodes `i` and `j` are joined when some edge
  names them, in either order, with both numbers inside the node range; `adj i j` is 1 then and 0
  otherwise (an edge naming a node outside the range joins nothing). A node's message is the sum of
  its neighbours' feature rows, `msg i c = sum_j adj i j * x j c`. The result is one affine layer of the
  node's own features plus one affine layer of its message:
  `G i c = (sum_k x i k * Wu c k + bu c) + (sum_k msg i k * Wa c k + ba c)`.
-/
import Idealize.ShloMosaic.PureOps.Ideal
import Idealize.ShloMosaic.Lib.ValueIdx

noncomputable section

namespace Cert.Gnn

open Idealize.ShloMosaic Idealize.ShloMosaic.ValueIdx

/-- Node features, 16384 x 32. -/
abbrev SX : Shape := ⟨2, ![16384, 32]⟩
/-- The edge table, 2 x 524288. -/
abbrev SE : Shape := ⟨2, ![2, 524288]⟩
/-- A layer's weights, 32 x 32 (output channel, input channel). -/
abbrev SW : Shape := ⟨2, ![32, 32]⟩
/-- A layer's bias, 32. -/
abbrev SB : Shape := ⟨1, ![32]⟩

/-- A node number as jnp reads it: a negative one counts from the end of the 16384 nodes. -/
def wrap (v : BitVec 32) : BitVec 32 := Scalar.select (IntOp.cmpi .slt v 0#32) (IntOp.addi v 16384#32) v

/-- Edge `e`'s first node number, wrapped. -/
def src (ei : SE.Idx → BitVec 32) (e : Fin 524288) : BitVec 32 := wrap (ei (ix2 (0 : Fin 2) e))
/-- Edge `e`'s second node number, wrapped. -/
def dst (ei : SE.Idx → BitVec 32) (e : Fin 524288) : BitVec 32 := wrap (ei (ix2 (1 : Fin 2) e))

/-- Some edge names `i` and `j`, in either order. -/
def Joined (ei : SE.Idx → BitVec 32) (i j : Fin 16384) : Prop :=
  ∃ e : Fin 524288, ((src ei e).toInt = (i.val : Int) ∧ (dst ei e).toInt = (j.val : Int))
    ∨ ((dst ei e).toInt = (i.val : Int) ∧ (src ei e).toInt = (j.val : Int))

open Classical in
/-- The symmetric 0/1 adjacency. -/
def adj (ei : SE.Idx → BitVec 32) (i j : Fin 16384) : EReal := if Joined ei i j then 1 else 0

/-- A node's message: the sum of its neighbours' features. -/
def msg (x : SX.Idx → EReal) (ei : SE.Idx → BitVec 32) (i : Fin 16384) (c : Fin 32) : EReal :=
  ∑ j : Fin 16384, adj ei i j * x (ix2 j c)

/-- One affine layer applied to a row: `sum_k row k * W c k + b c`. -/
def layer (W : SW.Idx → EReal) (b : SB.Idx → EReal) (row : Fin 32 → EReal) (c : Fin 32) : EReal :=
  (∑ k : Fin 32, row k * W (ix2 c k)) + b (ix1 c)

/-- The result: the update layer of the node's own features plus the aggregate layer of its message. -/
def G (x : SX.Idx → EReal) (ei : SE.Idx → BitVec 32) (Wa : SW.Idx → EReal) (ba : SB.Idx → EReal)
    (Wu : SW.Idx → EReal) (bu : SB.Idx → EReal) : SX.Idx → EReal := fun i =>
  layer Wu bu (fun k => x (ix2 (i 0) k)) (i 1) + layer Wa ba (fun k => msg x ei (i 0) k) (i 1)

end Cert.Gnn

end
-- ==== Proof.KernelHost.lean ====
/-
  What the arrays the kernel's windows read hold when the region is entered, as functions of the
  argument arrays. Before the region the program builds, from the 2 x 524288 edge table, a table of
  1048576 (row, column) pairs — every edge once as given and once reversed, each node number wrapped
  into the node range —, writes 1 into a 16384 x 16384 array of zeros at every pair of the table (the
  adjacency array), transposes the two weight matrices and reads the two biases as rows. Each of
  these arrays is named here as a term over the argument it is built from, and the state after the
  host operations is shown to hold exactly that term at the array's reference; the six arguments
  themselves are left as they were.
-/
import proofs.«136598_j14061722927248_2_alg».proof.Proof.Gen.KernelIdeal.Launch
import Idealize.ShloMosaic.Lib.StableHlo.Run
import proofs.«136598_j14061722927248_2_alg».proof.Proof.Spec

noncomputable section

namespace Cert.Gnn.Host

open Idealize.ShloMosaic Cert.KernelIdeal Cert.KernelIdeal.Gen

variable [Cert.KernelIdeal.Facts]

local notation "𝕀" => Idealize.ShloMosaic.Ideal

/-! ## The arrays the host operations build, as functions of the argument arrays -/

/-- Row `0` of the edge table (the edges' first node numbers), as a vector of length 524288. -/
def rowA (ei : Vec 𝕀 S2x524288 .i32) : Vec 𝕀 S524288 .i32 :=
  shapeCast S524288 (extractStridedSlice S1x524288 ![0, 0] ei slices_S2x524288_S1x524288_0_0) shapeCasts_S1x524288_S524288

/-- Row `1` of the edge table (the edges' second node numbers), as a vector of length 524288. -/
def rowB (ei : Vec 𝕀 S2x524288 .i32) : Vec 𝕀 S524288 .i32 :=
  shapeCast S524288 (extractStridedSlice S1x524288 ![1, 0] ei slices_S2x524288_S1x524288_1_0) shapeCasts_S1x524288_S524288

/-- Two vectors of length 524288 joined end to end. -/
def join0 (a b : Vec 𝕀 S524288 .i32) : Vec 𝕀 S1048576 .i32 :=
  concatenate S1048576 0 [⟨S524288, a⟩, ⟨S524288, b⟩] concatenates_S524288_S524288_S1048576_d0

/-- A vector of node numbers with every negative one counted from the end of the 16384 nodes. -/
def wrapV (v : Vec 𝕀 S1048576 .i32) : Vec 𝕀 S1048576 .i32 :=
  select (cmpi .slt v (broadcastInDim S1048576 ![] bcast_S_S1048576 (constantI S_ 32 0#32)))
    (addi v (broadcastInDim S1048576 ![] bcast_S_S1048576 (constantI S_ 32 16384#32))) v

/-- A vector of length 1048576 as a column. -/
def col (v : Vec 𝕀 S1048576 .i32) : Vec 𝕀 S1048576x1 .i32 :=
  broadcastInDim S1048576x1 ![0] bcast_S1048576_S1048576x1_0 v

/-- The index table: 1048576 rows of two node numbers, the first 524288 rows the edges as given, the last
    524288 the edges reversed. -/
def table (ei : Vec 𝕀 S2x524288 .i32) : Vec 𝕀 S1048576x2 .i32 :=
  concatenate S1048576x2 1
    [⟨S1048576x1, col (wrapV (join0 (rowA ei) (rowB ei)))⟩, ⟨S1048576x1, col (wrapV (join0 (rowB ei) (rowA ei)))⟩]
    concatenates_S1048576x1_S1048576x1_S1048576x2_d1

/-- The adjacency array: zero everywhere, then one written at every row of the index table. -/
def adjArr (ei : Vec 𝕀 S2x524288 .i32) : Vec 𝕀 S16384x16384 .bf16 :=
  Host.scatter scatter_S16384x16384_S1048576x2_S1048576_n_01_01_1 (fun _ b => b)
    (broadcastInDim S16384x16384 ![] bcast_S_S16384x16384 (constant (F := 𝕀) S_ .bf16 0x0000#16))
    (table ei)
    (broadcastInDim S1048576 ![] bcast_S_S1048576 (constant (F := 𝕀) S_ .bf16 0x3F80#16))

/-- A 32 x 32 array transposed. -/
def tr (W : Vec 𝕀 S32x32 .f32) : Vec 𝕀 S32x32 .f32 :=
  transpose S32x32 [1, 0] W transposes_S32x32_S32x32_1_0

/-- A vector of length 32 as a row. -/
def asRow (b : Vec 𝕀 S32 .f32) : Vec 𝕀 S1x32 .f32 :=
  shapeCast S1x32 b shapeCasts_S32_S1x32

/-! ## What the host operations leave in each array the region reads -/

variable (V₀ : Valuation τ sig (Elt 𝕀))

theorem after_v21 :
    (StableHlo.after (hostOps0 (F := 𝕀)) V₀ (Proc.devRef .tc main_v21) : Vec 𝕀 S16384x16384 .bf16)
      = adjArr (V₀ (Proc.devRef .tc main_arg1)) := by
  dsimp only [hostOps0]; after_results_simp; rfl

theorem after_v22 :
    (StableHlo.after (hostOps0 (F := 𝕀)) V₀ (Proc.devRef .tc main_v22) : Vec 𝕀 S32x32 .f32)
      = tr (V₀ (Proc.devRef .tc main_arg2)) := by
  dsimp only [hostOps0]; after_results_simp; rfl

theorem after_v23 :
    (StableHlo.after (hostOps0 (F := 𝕀)) V₀ (Proc.devRef .tc main_v23) : Vec 𝕀 S32x32 .f32)
      = tr (V₀ (Proc.devRef .tc main_arg4)) := by
  dsimp only [hostOps0]; after_results_simp; rfl

theorem after_v24 :
    (StableHlo.after (hostOps0 (F := 𝕀)) V₀ (Proc.devRef .tc main_v24) : Vec 𝕀 S1x32 .f32)
      = asRow (V₀ (Proc.devRef .tc main_arg3)) := by
  dsimp only [hostOps0]; after_results_simp; rfl

theorem after_v25 :
    (StableHlo.after (hostOps0 (F := 𝕀)) V₀ (Proc.devRef .tc main_v25) : Vec 𝕀 S1x32 .f32)
      = asRow (V₀ (Proc.devRef .tc main_arg5)) := by
  dsimp only [hostOps0]; after_results_simp; rfl

theorem after_arg0 :
    StableHlo.after (hostOps0 (F := 𝕀)) V₀ (Proc.devRef .tc main_arg0) = V₀ (Proc.devRef .tc main_arg0) := by
  dsimp only [hostOps0]; after_results_simp

theorem after_arg1 :
    StableHlo.after (hostOps0 (F := 𝕀)) V₀ (Proc.devRef .tc main_arg1) = V₀ (Proc.devRef .tc main_arg1) := by
  dsimp only [hostOps0]; after_results_simp

theorem after_arg2 :
    StableHlo.after (hostOps0 (F := 𝕀)) V₀ (Proc.devRef .tc main_arg2) = V₀ (Proc.devRef .tc main_arg2) := by
  dsimp only [hostOps0]; after_results_simp

theorem after_arg3 :
    StableHlo.after (hostOps0 (F := 𝕀)) V₀ (Proc.devRef .tc main_arg3) = V₀ (Proc.devRef .tc main_arg3) := by
  dsimp only [hostOps0]; after_results_simp

theorem after_arg4 :
    StableHlo.after (hostOps0 (F := 𝕀)) V₀ (Proc.devRef .tc main_arg4) = V₀ (Proc.devRef .tc main_arg4) := by
  dsimp only [hostOps0]; after_results_simp

theorem after_arg5 :
    StableHlo.after (hostOps0 (F := 𝕀)) V₀ (Proc.devRef .tc main_arg5) = V₀ (Proc.devRef .tc main_arg5) := by
  dsimp only [hostOps0]; after_results_simp

end Cert.Gnn.Host

end
-- ==== Proof.LibScatterSet.lean ====
/-
  A scatter whose combiner keeps the update and whose updates are all one constant: the result does
  not depend on the order of the updates. An element of the result is the constant where some update
  lands on it and the operand's element where none does. Then the same for the dimension numbers of
  a scatter of scalars into a matrix at (row, column) pairs read off an `n x 2` table.
-/
import Idealize.ShloMosaic.PureOps.ShapeOps
import Idealize.ShloMosaic.Lib.ValueIdx

namespace Cert.LibScatterSet

open Idealize.ShloMosaic Idealize.ShloMosaic.ValueIdx

/-- The fold of the scatter step over ANY list `L` of update positions, with the combiner that
keeps the update and every update equal to `c`: element `i'` of the result is `c` when some
position of `L` lands on `i'`, and the start value's element otherwise. By induction on `L`:
a later overwrite by `c` of an element that is already `c` changes nothing. -/
theorem scatter_const_list {s si u : Shape} {α : Type} {w : Nat} (d : ScatterDims s si u)
    (idx : IVec si w) (c : α) (i' : s.Idx) (L : List (Fin u.numel)) (x : s.Idx → α) :
    (L.foldl (fun r n =>
      match d.resultIdx? (u.rowMajor.symm n) idx with
      | some i => fun i' => if i' = i then (fun (_ b : α) => b) (r i) ((fun _ => c) (u.rowMajor.symm n)) else r i'
      | none => r) x) i'
      = @ite α (∃ n ∈ L, d.resultIdx? (u.rowMajor.symm n) idx = some i') (Classical.propDecidable _) c (x i') := by
  classical
  induction L generalizing x with
  | nil => simp
  | cons n L ih =>
    rw [List.foldl_cons, ih]
    cases hn : d.resultIdx? (u.rowMajor.symm n) idx with
    | none => simp [List.exists_mem_cons, hn]
    | some i =>
      by_cases hi : i' = i
      · subst hi
        simp [List.exists_mem_cons, hn]
      · have hi' : ¬ i = i' := fun h => hi h.symm
        simp [List.exists_mem_cons, hn, hi, hi']

/-- A scatter that keeps the update, all updates the constant `c`, is order-free: element `i'` of
the result is `c` when some update index lands on `i'` and the operand's element otherwise. (The
row-major numbering of the update indices is a bijection, so "some position of the whole range"
is "some update index". The `if` is decided classically, the instance written out so that it
is the same term at every shape.) -/
theorem scatter_const {s si u : Shape} {α : Type} {w : Nat} (d : ScatterDims s si u)
    (x : s.Idx → α) (idx : IVec si w) (c : α) (i' : s.Idx) :
    Host.scatter d (fun _ b => b) x idx (fun _ => c) i'
      = @ite α (∃ j : u.Idx, d.resultIdx? j idx = some i') (Classical.propDecidable _) c (x i') := by
  classical
  unfold Host.scatter
  refine (scatter_const_list d idx c i' (List.finRange u.numel) x).trans ?_
  have hiff : (∃ n ∈ List.finRange u.numel, d.resultIdx? (u.rowMajor.symm n) idx = some i')
      ↔ (∃ j : u.Idx, d.resultIdx? j idx = some i') := by
    constructor
    · rintro ⟨n, _, hn⟩
      exact ⟨_, hn⟩
    · rintro ⟨j, hj⟩
      exact ⟨u.rowMajor j, List.mem_finRange _, by simpa using hj⟩
  by_cases h : ∃ j : u.Idx, d.resultIdx? j idx = some i'
  · rw [if_pos h, if_pos (hiff.mpr h)]
  · rw [if_neg h, if_neg (fun h' => h (hiff.mp h'))]

/-- The same when the updates are an array known to be `c` at every index. -/
theorem scatter_of_const {s si u : Shape} {α : Type} {w : Nat} (d : ScatterDims s si u)
    (x : s.Idx → α) (idx : IVec si w) (upd : u.Idx → α) (c : α) (hupd : ∀ j, upd j = c) (i' : s.Idx) :
    Host.scatter d (fun _ b => b) x idx upd i'
      = @ite α (∃ j : u.Idx, d.resultIdx? j idx = some i') (Classical.propDecidable _) c (x i') := by
  obtain rfl : upd = fun _ => c := funext hupd
  exact scatter_const d x idx c i'

/-- The dimension numbers of a scatter of `n` scalars into an `a x b` matrix at the (row, column)
pairs of an `n x 2` table: no window axes, both operand axes inserted, the pair's two components
going to operand axes 0 and 1, the pair along the table's axis 1. -/
abbrev setDims (a b n : Nat)
    (wf : ScatterDims.WF ⟨2, ![a, b]⟩ ⟨2, ![n, 2]⟩ ⟨1, ![n]⟩ [] [0, 1] [0, 1] 1) :
    ScatterDims ⟨2, ![a, b]⟩ ⟨2, ![n, 2]⟩ ⟨1, ![n]⟩ where
  updateWindowDims := []
  insertedWindowDims := [0, 1]
  scatterDimsToOperandDims := [0, 1]
  indexVectorDim := 1
  wf := wf

section
variable {a b n w : Nat} (wf : ScatterDims.WF ⟨2, ![a, b]⟩ ⟨2, ![n, 2]⟩ ⟨1, ![n]⟩ [] [0, 1] [0, 1] 1)

/-- Both operand axes are inserted, so the window coordinate is `0` on each. -/
theorem setDims_window (j : (⟨1, ![n]⟩ : Shape).Idx) (a' : Fin 2) :
    (setDims a b n wf).window j a' = 0 := by
  unfold ScatterDims.window
  rw [dif_neg]
  have h01 : a' = 0 ∨ a' = 1 := by omega
  rcases h01 with rfl | rfl <;> simp [ScatterDims.sKept, Shape.kept]

/-- Update `j` reads the first component of its pair at table position `(j, 0)`. -/
theorem setDims_siIdx0 (j : (⟨1, ![n]⟩ : Shape).Idx) (h) :
    (setDims a b n wf).siIdx j ⟨0, h⟩ = ix2 (j 0) (0 : Fin 2) := by
  funext b'; refine Fin.ext ?_
  match b' with
  | ⟨0, _⟩ => rfl
  | ⟨1, _⟩ => rfl

/-- Update `j` reads the second component of its pair at table position `(j, 1)`. -/
theorem setDims_siIdx1 (j : (⟨1, ![n]⟩ : Shape).Idx) (h) :
    (setDims a b n wf).siIdx j ⟨1, h⟩ = ix2 (j 0) (1 : Fin 2) := by
  funext b'; refine Fin.ext ?_
  match b' with
  | ⟨0, _⟩ => rfl
  | ⟨1, _⟩ => rfl

/-- The start on operand axis 0 is the pair's first component, read signed. -/
theorem setDims_start0 (j : (⟨1, ![n]⟩ : Shape).Idx) (idx : IVec ⟨2, ![n, 2]⟩ w) :
    (setDims a b n wf).start j idx (0 : Fin 2) = (idx (ix2 (j 0) (0 : Fin 2))).toInt := by
  unfold ScatterDims.start
  rw [dif_pos (by simp)]
  exact congrArg (fun v => (idx v).toInt) (setDims_siIdx0 wf j _)

/-- The start on operand axis 1 is the pair's second component, read signed. -/
theorem setDims_start1 (j : (⟨1, ![n]⟩ : Shape).Idx) (idx : IVec ⟨2, ![n, 2]⟩ w) :
    (setDims a b n wf).start j idx (1 : Fin 2) = (idx (ix2 (j 0) (1 : Fin 2))).toInt := by
  unfold ScatterDims.start
  rw [dif_pos (by simp)]
  exact congrArg (fun v => (idx v).toInt) (setDims_siIdx1 wf j _)

/-- Update `j` lands on element `i'` exactly when its pair, read signed, is `(i' 0, i' 1)`: the
result index is the pair itself (no window offset), kept only when inside the matrix, and `i'` is
inside. -/
theorem setDims_resultIdx?_eq_some_iff (j : (⟨1, ![n]⟩ : Shape).Idx) (idx : IVec ⟨2, ![n, 2]⟩ w)
    (i' : (⟨2, ![a, b]⟩ : Shape).Idx) :
    (setDims a b n wf).resultIdx? j idx = some i'
      ↔ (idx (ix2 (j 0) (0 : Fin 2))).toInt = ((i' 0).val : Int)
        ∧ (idx (ix2 (j 0) (1 : Fin 2))).toInt = ((i' 1).val : Int) := by
  have hs0 := setDims_start0 wf j idx
  have hs1 := setDims_start1 wf j idx
  have hw0 := setDims_window wf j 0
  have hw1 := setDims_window wf j 1
  have q0 : ((i' 0).val : Int) < (a : Int) := Int.ofNat_lt.mpr (i' 0).isLt
  have q1 : ((i' 1).val : Int) < (b : Int) := Int.ofNat_lt.mpr (i' 1).isLt
  have hz0 : (((⟨2, ![a, b]⟩ : Shape).size (0 : Fin 2) : Nat) : Int) = (a : Int) := rfl
  have hz1 : (((⟨2, ![a, b]⟩ : Shape).size (1 : Fin 2) : Nat) : Int) = (b : Int) := rfl
  have h01 : ∀ a' : Fin 2, a' = 0 ∨ a' = 1 := fun a' => by omega
  unfold ScatterDims.resultIdx?
  by_cases hin : ∀ a', 0 ≤ (setDims a b n wf).start j idx a' + ((setDims a b n wf).window j a' : Int)
      ∧ (setDims a b n wf).start j idx a' + ((setDims a b n wf).window j a' : Int) < (⟨2, ![a, b]⟩ : Shape).size a'
  · rw [dif_pos hin]
    have p0 := hin 0
    have p1 := hin 1
    rw [hs0, hw0] at p0
    rw [hs1, hw1] at p1
    constructor
    · intro h
      have h' := Option.some.inj h
      have e0 : ((setDims a b n wf).start j idx 0 + ((setDims a b n wf).window j 0 : Int)).toNat = (i' 0).val :=
        congrArg Fin.val (congrFun h' 0)
      have e1 : ((setDims a b n wf).start j idx 1 + ((setDims a b n wf).window j 1 : Int)).toNat = (i' 1).val :=
        congrArg Fin.val (congrFun h' 1)
      rw [hs0, hw0] at e0
      rw [hs1, hw1] at e1
      constructor <;> omega
    · rintro ⟨h0, h1⟩
      refine congrArg some (funext fun a' => Fin.ext ?_)
      show ((setDims a b n wf).start j idx a' + ((setDims a b n wf).window j a' : Int)).toNat = (i' a').val
      rcases h01 a' with rfl | rfl
      · rw [hs0, hw0, h0]; omega
      · rw [hs1, hw1, h1]; omega
  · rw [dif_neg hin]
    constructor
    · intro h; cases h
    · rintro ⟨h0, h1⟩
      refine absurd (fun a' => ?_) hin
      rcases h01 a' with rfl | rfl
      · rw [hs0, hw0, h0, hz0]; omega
      · rw [hs1, hw1, h1, hz1]; omega
/-- THE SCATTER READ AT `i'`: with the combiner that keeps the update and every update the constant
`c`, element `i'` of the result is `c` when some row `r` of the table holds the pair `(i' 0, i' 1)`
(read signed), and the operand's element otherwise. -/
theorem setDims_scatter_const {α : Type} (x : (⟨2, ![a, b]⟩ : Shape).Idx → α)
    (idx : IVec ⟨2, ![n, 2]⟩ w) (c : α) (i' : (⟨2, ![a, b]⟩ : Shape).Idx) :
    Host.scatter (setDims a b n wf) (fun _ v => v) x idx (fun _ => c) i'
      = @ite α (∃ r : Fin n, (idx (ix2 r (0 : Fin 2))).toInt = ((i' 0).val : Int)
            ∧ (idx (ix2 r (1 : Fin 2))).toInt = ((i' 1).val : Int)) (Classical.propDecidable _) c (x i') := by
  classical
  rw [scatter_const]
  have hiff : (∃ j : (⟨1, ![n]⟩ : Shape).Idx, (setDims a b n wf).resultIdx? j idx = some i')
      ↔ (∃ r : Fin n, (idx (ix2 r (0 : Fin 2))).toInt = ((i' 0).val : Int)
            ∧ (idx (ix2 r (1 : Fin 2))).toInt = ((i' 1).val : Int)) := by
    constructor
    · rintro ⟨j, hj⟩
      exact ⟨j 0, (setDims_resultIdx?_eq_some_iff wf j idx i').mp hj⟩
    · rintro ⟨r, hr⟩
      exact ⟨ix1 r, (setDims_resultIdx?_eq_some_iff wf (ix1 r) idx i').mpr hr⟩
  by_cases h : ∃ r : Fin n, (idx (ix2 r (0 : Fin 2))).toInt = ((i' 0).val : Int)
      ∧ (idx (ix2 r (1 : Fin 2))).toInt = ((i' 1).val : Int)
  · rw [if_pos h, if_pos (hiff.mpr h)]
  · rw [if_neg h, if_neg (fun h' => h (hiff.mp h'))]

/-- The same when the updates are an array known to be `c` at every index. -/
theorem setDims_scatter_of_const {α : Type} (x : (⟨2, ![a, b]⟩ : Shape).Idx → α)
    (idx : IVec ⟨2, ![n, 2]⟩ w) (upd : (⟨1, ![n]⟩ : Shape).Idx → α) (c : α) (hupd : ∀ j, upd j = c)
    (i' : (⟨2, ![a, b]⟩ : Shape).Idx) :
    Host.scatter (setDims a b n wf) (fun _ v => v) x idx upd i'
      = @ite α (∃ r : Fin n, (idx (ix2 r (0 : Fin 2))).toInt = ((i' 0).val : Int)
            ∧ (idx (ix2 r (1 : Fin 2))).toInt = ((i' 1).val : Int)) (Classical.propDecidable _) c (x i') := by
  obtain rfl : upd = fun _ => c := funext hupd
  exact setDims_scatter_const wf x idx c i'

end

end Cert.LibScatterSet
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.KernelAdj.lean ====
/-
  The arrays the host operations build, read at an index. The transposed weight matrices and the
  biases read as rows are re-indexings. The adjacency array is the substantial one: the index table
  has 1048576 rows, row `r < 524288` the pair `(src r, dst r)` of edge `r` and row `r ≥ 524288` the
  reversed pair `(dst (r - 524288), src (r - 524288))`, every node number wrapped into the node range;
  so some row of the table is `(i, j)` exactly when some edge joins `i` and `j` in either order, and
  the scatter of the constant `1` into zeros at the rows of the table is the symmetric 0/1 adjacency.
  Every concatenation is read index by index (the first piece below its extent, the second piece
  past it); nothing ranges over the rows.
-/
import proofs.«136598_j14061722927248_2_alg».proof.Proof.KernelHost
import Idealize.ShloMosaic.Lib.Pipeline.Value
import Idealize.ShloMosaic.Lib.IdealHost
import Idealize.ShloMosaic.Lib.ValueIdx
import proofs.«136598_j14061722927248_2_alg».proof.Proof.LibScatterSet
import proofs.«136598_j14061722927248_2_alg».proof.Proof.LibLiterals

noncomputable section

namespace Cert.Gnn.Host

open Idealize.ShloMosaic Idealize.ShloMosaic.ValueIdx Cert.KernelIdeal Cert.KernelIdeal.Gen

variable [Cert.KernelIdeal.Facts]

local notation "𝕀" => Idealize.ShloMosaic.Ideal

/-! ## The weights and the biases -/

/-- The transposed matrix at `(k, c)` is the matrix at `(c, k)`. -/
theorem tr_apply (W : Vec 𝕀 S32x32 .f32) (k c : Fin 32) : tr W (ix2 k c) = W (ix2 c k) := by
  unfold tr
  exact transpose_apply _ _ _ (ix2 k c) (ix2 c k) (fun b => match b with | ⟨0, _⟩ => rfl | ⟨1, _⟩ => rfl)

/-- A vector read as a row: entry `(0, c)` is entry `c`. -/
theorem asRow_apply (b : Vec 𝕀 S32 .f32) (z : Fin 1) (c : Fin 32) : asRow b (ix2 z c) = b (ix1 c) := by
  unfold asRow
  refine shapeCast_apply _ _ (ix2 z c) (ix1 c) ?_
  rw [Shape.rowMajor_val_one, Shape.rowMajor_val_two]
  have := z.isLt
  show c.val = z.val * 32 + c.val
  omega

/-! ## The index table, row by row -/

theorem rowA_apply (ei : Vec 𝕀 S2x524288 .i32) (e : Fin 524288) : rowA ei (ix1 e) = ei (ix2 (0 : Fin 2) e) := by
  unfold rowA
  refine (shapeCast_apply _ _ (ix1 e) (ix2 (0 : Fin 1) e) ?_).trans ?_
  · rw [Shape.rowMajor_val_two, Shape.rowMajor_val_one]
    show 0 * 524288 + e.val = e.val
    omega
  · exact extractStridedSlice_apply _ _ _ (ix2 (0 : Fin 1) e) (ix2 (0 : Fin 2) e)
      (fun a => match a with | ⟨0, _⟩ => rfl | ⟨1, _⟩ => by show e.val = 0 + e.val; omega)

theorem rowB_apply (ei : Vec 𝕀 S2x524288 .i32) (e : Fin 524288) : rowB ei (ix1 e) = ei (ix2 (1 : Fin 2) e) := by
  unfold rowB
  refine (shapeCast_apply _ _ (ix1 e) (ix2 (0 : Fin 1) e) ?_).trans ?_
  · rw [Shape.rowMajor_val_two, Shape.rowMajor_val_one]
    show 0 * 524288 + e.val = e.val
    omega
  · exact extractStridedSlice_apply _ _ _ (ix2 (0 : Fin 1) e) (ix2 (1 : Fin 2) e)
      (fun a => match a with | ⟨0, _⟩ => rfl | ⟨1, _⟩ => by show e.val = 0 + e.val; omega)

/-- Two vectors joined end to end, read in the first half. -/
theorem join0_apply_lt (a b : Vec 𝕀 S524288 .i32) (r : Fin 1048576) (h : r.val < 524288) :
    join0 a b (ix1 r) = a (ix1 ⟨r.val, h⟩) := by
  unfold join0
  exact concatenate_pair_apply_left 0 a b _ (ix1 r) rfl (ix1 ⟨r.val, h⟩) (fun c => match c with | ⟨0, _⟩ => rfl)

/-- Two vectors joined end to end, read in the second half. -/
theorem join0_apply_ge (a b : Vec 𝕀 S524288 .i32) (r : Fin 1048576) (h : 524288 ≤ r.val) :
    join0 a b (ix1 r) = b (ix1 ⟨r.val - 524288, by have := r.isLt; omega⟩) := by
  unfold join0
  exact concatenate_pair_apply_right 0 a b _ (ix1 r) rfl rfl (ix1 ⟨r.val - 524288, by have := r.isLt; omega⟩)
    (fun c hc => match c with | ⟨0, _⟩ => absurd rfl hc) (by show (r.val - 524288) + 524288 = r.val; omega)

/-- Wrapping a vector of node numbers wraps each entry. -/
theorem wrapV_apply (v : Vec 𝕀 S1048576 .i32) (j : S1048576.Idx) : wrapV v j = Cert.Gnn.wrap (v j) := rfl

/-- A vector read as a column. -/
theorem col_apply (v : Vec 𝕀 S1048576 .i32) (r : Fin 1048576) (z : Fin 1) : col v (ix2 r z) = v (ix1 r) := by
  unfold col
  exact broadcastInDim_apply _ _ _ (ix2 r z) (ix1 r) (fun a => match a with | ⟨0, _⟩ => rfl)

theorem table_apply_0 (ei : Vec 𝕀 S2x524288 .i32) (r : Fin 1048576) :
    table ei (ix2 r (0 : Fin 2)) = Cert.Gnn.wrap (join0 (rowA ei) (rowB ei) (ix1 r)) := by
  unfold table
  refine (concatenate_pair_apply_left (s₁ := S1048576x1) (s₂ := S1048576x1) 1 _ _ _ (ix2 r (0 : Fin 2)) rfl (ix2 r (0 : Fin 1))
    (fun c => match c with | ⟨0, _⟩ => rfl | ⟨1, _⟩ => rfl)).trans ?_
  rw [col_apply, wrapV_apply]

theorem table_apply_1 (ei : Vec 𝕀 S2x524288 .i32) (r : Fin 1048576) :
    table ei (ix2 r (1 : Fin 2)) = Cert.Gnn.wrap (join0 (rowB ei) (rowA ei) (ix1 r)) := by
  unfold table
  refine (concatenate_pair_apply_right (s₁ := S1048576x1) (s₂ := S1048576x1) 1 _ _ _ (ix2 r (1 : Fin 2)) rfl rfl (ix2 r (0 : Fin 1))
    (fun c hc => match c with | ⟨0, _⟩ => rfl | ⟨1, _⟩ => absurd rfl hc) (by show 0 + 1 = 1; rfl)).trans ?_
  rw [col_apply, wrapV_apply]

/-- Rows below 524288 are the edges as given. -/
theorem table_lt (ei : Vec 𝕀 S2x524288 .i32) (r : Fin 1048576) (h : r.val < 524288) :
    table ei (ix2 r (0 : Fin 2)) = Cert.Gnn.src ei ⟨r.val, h⟩ ∧ table ei (ix2 r (1 : Fin 2)) = Cert.Gnn.dst ei ⟨r.val, h⟩ := by
  rw [table_apply_0, table_apply_1, join0_apply_lt _ _ r h, join0_apply_lt _ _ r h, rowA_apply, rowB_apply]
  exact ⟨rfl, rfl⟩

/-- Rows from 524288 on are the edges reversed. -/
theorem table_ge (ei : Vec 𝕀 S2x524288 .i32) (r : Fin 1048576) (h : 524288 ≤ r.val) :
    table ei (ix2 r (0 : Fin 2)) = Cert.Gnn.dst ei ⟨r.val - 524288, by have := r.isLt; omega⟩
      ∧ table ei (ix2 r (1 : Fin 2)) = Cert.Gnn.src ei ⟨r.val - 524288, by have := r.isLt; omega⟩ := by
  rw [table_apply_0, table_apply_1, join0_apply_ge _ _ r h, join0_apply_ge _ _ r h, rowA_apply, rowB_apply]
  exact ⟨rfl, rfl⟩

/-- Some row of the table is `(i, j)` exactly when some edge joins `i` and `j`, in either order. -/
theorem exists_row_iff (ei : Vec 𝕀 S2x524288 .i32) (i j : Fin 16384) :
    (∃ r : Fin 1048576, (table ei (ix2 r (0 : Fin 2))).toInt = (i.val : Int) ∧ (table ei (ix2 r (1 : Fin 2))).toInt = (j.val : Int))
      ↔ Cert.Gnn.Joined ei i j := by
  constructor
  · rintro ⟨r, h0, h1⟩
    by_cases h : r.val < 524288
    · obtain ⟨e0, e1⟩ := table_lt ei r h
      rw [e0] at h0; rw [e1] at h1
      exact ⟨⟨r.val, h⟩, Or.inl ⟨h0, h1⟩⟩
    · have h' : 524288 ≤ r.val := Nat.le_of_not_lt h
      obtain ⟨e0, e1⟩ := table_ge ei r h'
      rw [e0] at h0; rw [e1] at h1
      exact ⟨⟨r.val - 524288, by have := r.isLt; omega⟩, Or.inr ⟨h0, h1⟩⟩
  · rintro ⟨e, he⟩
    rcases he with ⟨h0, h1⟩ | ⟨h0, h1⟩
    · have hlt : (⟨e.val, by have := e.isLt; omega⟩ : Fin 1048576).val < 524288 := e.isLt
      obtain ⟨e0, e1⟩ := table_lt ei ⟨e.val, by have := e.isLt; omega⟩ hlt
      exact ⟨⟨e.val, by have := e.isLt; omega⟩, by rw [e0]; exact h0, by rw [e1]; exact h1⟩
    · have hge : 524288 ≤ (⟨e.val + 524288, by have := e.isLt; omega⟩ : Fin 1048576).val := Nat.le_add_left _ _
      obtain ⟨e0, e1⟩ := table_ge ei ⟨e.val + 524288, by have := e.isLt; omega⟩ hge
      have hfin : (⟨(⟨e.val + 524288, by have := e.isLt; omega⟩ : Fin 1048576).val - 524288, by have := e.isLt; show e.val + 524288 - 524288 < 524288; omega⟩ : Fin 524288) = e :=
        Fin.ext (by show e.val + 524288 - 524288 = e.val; omega)
      rw [hfin] at e0 e1
      exact ⟨⟨e.val + 524288, by have := e.isLt; omega⟩, by rw [e0]; exact h0, by rw [e1]; exact h1⟩

/-! ## The adjacency array at an index -/

/-- The adjacency array at `(i, j)` is `1` when some edge joins `i` and `j`, in either order, and `0` otherwise:
    the scatter writes the constant `1` wherever a row of the table lands (the order of the rows does not matter), and
    a row lands on `(i, j)` exactly when it holds that pair. -/
theorem adjArr_apply (ei : Vec 𝕀 S2x524288 .i32) (i j : Fin 16384) :
    adjArr ei (ix2 i j) = Cert.Gnn.adj ei i j := by
  have hu : (broadcastInDim S1048576 ![] bcast_S_S1048576 (constant (F := 𝕀) S_ .bf16 0x3F80#16) : Vec 𝕀 S1048576 .bf16)
      = fun _ => (1 : EReal) := by
    funext n
    rw [broadcastInDim_scalar_apply]
    exact Cert.LibLiterals.constant_bf16_one _ _
  have hz : (broadcastInDim S16384x16384 ![] bcast_S_S16384x16384 (constant (F := 𝕀) S_ .bf16 0x0000#16) : Vec 𝕀 S16384x16384 .bf16)
      (ix2 i j) = (0 : EReal) := by
    rw [broadcastInDim_scalar_apply]
    exact Cert.LibLiterals.constant_bf16_zero _ _
  unfold adjArr
  rw [hu]
  show Host.scatter (Cert.LibScatterSet.setDims 16384 16384 1048576 _) (fun _ b => b) _ (table ei) (fun _ => (1 : EReal)) (ix2 i j) = _
  rw [Cert.LibScatterSet.setDims_scatter_const, hz]
  unfold Cert.Gnn.adj
  by_cases hJ : Cert.Gnn.Joined ei i j
  · rw [if_pos ((exists_row_iff ei i j).2 hJ), if_pos hJ]
  · rw [if_neg (fun h => hJ ((exists_row_iff ei i j).1 h)), if_neg hJ]

/-! ## The same at any index, and straight off the state after the host operations -/

/-- The transposed matrix at any index. -/
theorem tr_apply' (W : Vec 𝕀 S32x32 .f32) (j : S32x32.Idx) : tr W j = W (ix2 (j 1) (j 0)) := by
  conv_lhs => rw [eq_ix2 j]
  exact tr_apply W (j 0) (j 1)

/-- A vector read as a row, at any index. -/
theorem asRow_apply' (b : Vec 𝕀 S32 .f32) (j : S1x32.Idx) : asRow b j = b (ix1 (j 1)) := by
  conv_lhs => rw [eq_ix2 j]
  exact asRow_apply b (j 0) (j 1)

/-- The adjacency array at any index. -/
theorem adjArr_apply' (ei : Vec 𝕀 S2x524288 .i32) (j : S16384x16384.Idx) :
    adjArr ei j = Cert.Gnn.adj ei (j 0) (j 1) := by
  conv_lhs => rw [eq_ix2 j]
  exact adjArr_apply ei (j 0) (j 1)

variable (V₀ : Valuation τ sig (Elt 𝕀))

/-- When the region is entered the adjacency array holds the adjacency of the edge table argument. -/
theorem after_v21_apply (i j : Fin 16384) :
    (StableHlo.after (hostOps0 (F := 𝕀)) V₀ (Proc.devRef .tc main_v21) : Vec 𝕀 S16384x16384 .bf16) (ix2 i j)
      = Cert.Gnn.adj (V₀ (Proc.devRef .tc main_arg1)) i j := by
  rw [after_v21]; exact adjArr_apply _ i j

/-- When the region is entered the first transposed weight array holds the third argument transposed. -/
theorem after_v22_apply (k c : Fin 32) :
    (StableHlo.after (hostOps0 (F := 𝕀)) V₀ (Proc.devRef .tc main_v22) : Vec 𝕀 S32x32 .f32) (ix2 k c)
      = (V₀ (Proc.devRef .tc main_arg2) : Vec 𝕀 S32x32 .f32) (ix2 c k) := by
  rw [after_v22]; exact tr_apply _ k c

/-- When the region is entered the second transposed weight array holds the fifth argument transposed. -/
theorem after_v23_apply (k c : Fin 32) :
    (StableHlo.after (hostOps0 (F := 𝕀)) V₀ (Proc.devRef .tc main_v23) : Vec 𝕀 S32x32 .f32) (ix2 k c)
      = (V₀ (Proc.devRef .tc main_arg4) : Vec 𝕀 S32x32 .f32) (ix2 c k) := by
  rw [after_v23]; exact tr_apply _ k c

/-- When the region is entered the first bias row holds the fourth argument. -/
theorem after_v24_apply (z : Fin 1) (c : Fin 32) :
    (StableHlo.after (hostOps0 (F := 𝕀)) V₀ (Proc.devRef .tc main_v24) : Vec 𝕀 S1x32 .f32) (ix2 z c)
      = (V₀ (Proc.devRef .tc main_arg3) : Vec 𝕀 S32 .f32) (ix1 c) := by
  rw [after_v24]; exact asRow_apply _ z c

/-- When the region is entered the second bias row holds the sixth argument. -/
theorem after_v25_apply (z : Fin 1) (c : Fin 32) :
    (StableHlo.after (hostOps0 (F := 𝕀)) V₀ (Proc.devRef .tc main_v25) : Vec 𝕀 S1x32 .f32) (ix2 z c)
      = (V₀ (Proc.devRef .tc main_arg5) : Vec 𝕀 S32 .f32) (ix1 c) := by
  rw [after_v25]; exact asRow_apply _ z c

end Cert.Gnn.Host

end
-- ==== Proof.LibBlockSum.lean ====
/-
  Regrouping a sum over `Fin (a * b)` as `a` blocks of `b` consecutive terms.
-/
import Idealize.ShloMosaic.PureOps.Ideal

namespace Cert.LibBlockSum

/-- The position `k * b + j` of the `j`-th entry of block `k` lies below `a * b`. -/
theorem block_lt {a b : Nat} (k : Fin a) (j : Fin b) : k.val * b + j.val < a * b := by
  have hk : k.val + 1 ≤ a := k.isLt
  have hj : j.val < b := j.isLt
  calc k.val * b + j.val < k.val * b + b := by omega
    _ = (k.val + 1) * b := by ring
    _ ≤ a * b := Nat.mul_le_mul_right b hk

/-- A sum over `Fin (a * b)` is the sum over the `a` blocks of the sums of the `b` consecutive
terms of each block: `∑ n, f n = ∑ k, ∑ j, f (k * b + j)`. -/
theorem sum_blocks {M : Type*} [AddCommMonoid M] (a b : Nat) (f : Fin (a * b) → M) :
    ∑ n : Fin (a * b), f n
      = ∑ k : Fin a, ∑ j : Fin b, f ⟨k.val * b + j.val, block_lt k j⟩ := by
  -- the bijection (k, j) ↦ j + b * k of Mathlib, then the sum over a product as a double sum
  rw [← (finProdFinEquiv : Fin a × Fin b ≃ Fin (a * b)).sum_comp f, Fintype.sum_prod_type]
  refine Finset.sum_congr rfl (fun k _ => Finset.sum_congr rfl (fun j _ => ?_))
  congr 1
  apply Fin.ext
  simp [finProdFinEquiv, Nat.mul_comm, Nat.add_comm]

/-- The same regrouping when the length is given as a number `N` known to equal `a * b`. -/
theorem sum_blocks_of_eq {M : Type*} [AddCommMonoid M] {N : Nat} (a b : Nat) (h : a * b = N)
    (f : Fin N → M) :
    ∑ n : Fin N, f n
      = ∑ k : Fin a, ∑ j : Fin b, f ⟨k.val * b + j.val, h ▸ block_lt k j⟩ := by
  subst h
  exact sum_blocks a b f

/-- The instance used for 16384 nodes read as 4 blocks of 4096: a sum of extended reals over
`Fin 16384` is the sum over the 4 blocks of the sums of the 4096 terms of each block. -/
theorem sum_16384_blocks (g : Fin 16384 → EReal) :
    ∑ n : Fin 16384, g n
      = ∑ k : Fin 4, ∑ j : Fin 4096, g ⟨k.val * 4096 + j.val, by omega⟩ := by
  exact sum_blocks_of_eq (N := 16384) 4 4096 (by norm_num) g

end Cert.LibBlockSum
-- ==== Proof.KIValue.lean ====
/-
  The kernel's result array, at the ideal instance, is the specification `G` of the argument arrays.

  Row tile `i` of the result is written once, at the last of its four reduction steps. By then the
  accumulator holds `0 + P 0 + P 1 + P 2 + P 3`, where `P s` is the product of the adjacency tile at
  (row tile `i`, column tile `s`) with the feature rows of column tile `s`: the sum over the 4096
  columns of the tile. The four tile sums together are the sum over all 16384 columns — the node's
  message — because a sum over `Fin (4 * 4096)` is the double sum over `Fin 4` and `Fin 4096`; only the
  grouping of the additions differs, which needs no finiteness. The stored tile is then the update layer
  of the node's own rows plus the aggregate layer of the message, with the host's transposed weights
  and reshaped biases read back as the arguments; that is `G` at the tile's rows. The sixteen row tiles
  cover the result.
-/
import proofs.«136598_j14061722927248_2_alg».proof.Proof.KIFrameData
import proofs.«136598_j14061722927248_2_alg».proof.Proof.KIPieces
import proofs.«136598_j14061722927248_2_alg».proof.Proof.KIBlocks
import proofs.«136598_j14061722927248_2_alg».proof.Proof.KernelPay
import proofs.«136598_j14061722927248_2_alg».proof.Proof.KernelAdj
import proofs.«136598_j14061722927248_2_alg».proof.Proof.LibBlockSum
import proofs.«136598_j14061722927248_2_alg».proof.Proof.Spec
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open Cert.Gnn

local notation "𝕀" => Idealize.ShloMosaic.Ideal

variable (m : (ℓ : Loc nD τ sig) → Buf (Elt 𝕀) ℓ) (c : Dev nD)

/-! ## The argument arrays, and the arrays the host prepares from them -/

abbrev xA : SX.Idx → EReal := m ((c : Thread nD τ).loc main_arg0)
abbrev eA : SE.Idx → BitVec 32 := m ((c : Thread nD τ).loc main_arg1)
abbrev waA : SW.Idx → EReal := m ((c : Thread nD τ).loc main_arg2)
abbrev baA : SB.Idx → EReal := m ((c : Thread nD τ).loc main_arg3)
abbrev wuA : SW.Idx → EReal := m ((c : Thread nD τ).loc main_arg4)
abbrev buA : SB.Idx → EReal := m ((c : Thread nD τ).loc main_arg5)

theorem V_x : (V m c main_arg0 : SX.Idx → EReal) = xA m c := V_arg m c main_arg0 (.inl rfl)
theorem V_adj (i j : Fin 16384) : (V m c main_v21 : S16384x16384.Idx → EReal) (ix2 i j) = adj (eA m c) i j :=
  Cert.Gnn.Host.after_v21_apply (fun b => m (c, b)) i j
theorem V_wa (k q : Fin 32) : (V m c main_v22 : S32x32.Idx → EReal) (ix2 k q) = waA m c (ix2 q k) :=
  Cert.Gnn.Host.after_v22_apply (fun b => m (c, b)) k q
theorem V_wu (k q : Fin 32) : (V m c main_v23 : S32x32.Idx → EReal) (ix2 k q) = wuA m c (ix2 q k) :=
  Cert.Gnn.Host.after_v23_apply (fun b => m (c, b)) k q
theorem V_ba (z : Fin 1) (q : Fin 32) : (V m c main_v24 : S1x32.Idx → EReal) (ix2 z q) = baA m c (ix1 q) :=
  Cert.Gnn.Host.after_v24_apply (fun b => m (c, b)) z q
theorem V_bu (z : Fin 1) (q : Fin 32) : (V m c main_v25 : S1x32.Idx → EReal) (ix2 z q) = buA m c (ix1 q) :=
  Cert.Gnn.Host.after_v25_apply (fun b => m (c, b)) z q

/-! ## The blocks, typed, and read as the arguments -/

/-- The adjacency tile of point `t`. -/
def b0 (t : Fin cfg0.N) : Vec 𝕀 S1024x4096 .bf16 := iblk m c 0 t
/-- The feature tile of point `t`'s reduction step. -/
def b1 (t : Fin cfg0.N) : Vec 𝕀 S4096x32 .f32 := iblk m c 1 t
/-- The row tile's own features. -/
def b2 (t : Fin cfg0.N) : Vec 𝕀 S1024x32 .f32 := iblk m c 2 t
/-- The aggregate layer's weights, as the host lays them out. -/
def b3 (t : Fin cfg0.N) : Vec 𝕀 S32x32 .f32 := iblk m c 3 t
/-- The aggregate layer's bias row. -/
def b4 (t : Fin cfg0.N) : Vec 𝕀 S1x32 .f32 := iblk m c 4 t
/-- The update layer's weights, as the host lays them out. -/
def b5 (t : Fin cfg0.N) : Vec 𝕀 S32x32 .f32 := iblk m c 5 t
/-- The update layer's bias row. -/
def b6 (t : Fin cfg0.N) : Vec 𝕀 S1x32 .f32 := iblk m c 6 t

theorem b0_apply (t : Fin cfg0.N) (p : Fin 1024) (k : Fin 4096) :
    b0 m c t (ix2 p k) = adj (eA m c) (⟨t.val / 4 * 1024 + p.val, by have := lt64 t; omega⟩ : Fin 16384) (⟨t.val % 4 * 4096 + k.val, by omega⟩ : Fin 16384) := by
  unfold b0; rw [iblk0_apply]; exact V_adj m c _ _
theorem b1_apply (t : Fin cfg0.N) (k : Fin 4096) (q : Fin 32) :
    b1 m c t (ix2 k q) = xA m c (ix2 (⟨t.val % 4 * 4096 + k.val, by omega⟩ : Fin 16384) q) := by
  unfold b1; rw [iblk1_apply]; exact congrFun (V_x m c) _
theorem b2_apply (t : Fin cfg0.N) (p : Fin 1024) (k : Fin 32) :
    b2 m c t (ix2 p k) = xA m c (ix2 (⟨t.val / 4 * 1024 + p.val, by have := lt64 t; omega⟩ : Fin 16384) k) := by
  unfold b2; rw [iblk2_apply]; exact congrFun (V_x m c) _
theorem b3_apply (t : Fin cfg0.N) (k q : Fin 32) : b3 m c t (ix2 k q) = waA m c (ix2 q k) := by
  unfold b3; rw [iblk3_apply]; exact V_wa m c k q
theorem b4_apply (t : Fin cfg0.N) (z : Fin 1) (q : Fin 32) : b4 m c t (ix2 z q) = baA m c (ix1 q) := by
  unfold b4; rw [iblk4_apply]; exact V_ba m c z q
theorem b5_apply (t : Fin cfg0.N) (k q : Fin 32) : b5 m c t (ix2 k q) = wuA m c (ix2 q k) := by
  unfold b5; rw [iblk5_apply]; exact V_wu m c k q
theorem b6_apply (t : Fin cfg0.N) (z : Fin 1) (q : Fin 32) : b6 m c t (ix2 z q) = buA m c (ix1 q) := by
  unfold b6; rw [iblk6_apply]; exact V_bu m c z q

/-- What the runs leave, over the typed blocks. -/
theorem accFirst_b (t : Fin cfg0.N) (h0 : t.val % 4 = 0) (h3 : ¬t.val % 4 = 3) :
    accFirst m c t h0 h3 = k0_pay2 (F := 𝕀) (b0 m c t) (k0_pay1 (F := 𝕀)) (b1 m c t) := accFirst_eq m c t h0 h3
theorem accMid_b (t : Fin cfg0.N) (h0 : ¬t.val % 4 = 0) (h3 : ¬t.val % 4 = 3) (xs : Vec 𝕀 S1024x32 .f32) :
    accMid m c t h0 h3 xs = k0_pay2 (F := 𝕀) (b0 m c t) xs (b1 m c t) := accMid_eq m c t h0 h3 xs
theorem accLast_b (t : Fin cfg0.N) (h0 : ¬t.val % 4 = 0) (h3 : t.val % 4 = 3) (xs : Vec 𝕀 S1024x32 .f32) :
    accLast m c t h0 h3 xs = k0_pay2 (F := 𝕀) (b0 m c t) xs (b1 m c t) := accLast_eq m c t h0 h3 xs
theorem outLast_b (t : Fin cfg0.N) (h0 : ¬t.val % 4 = 0) (h3 : t.val % 4 = 3) (xs : Vec 𝕀 S1024x32 .f32) :
    outLast m c t h0 h3 xs = k0_pay3 (F := 𝕀) (k0_pay2 (F := 𝕀) (b0 m c t) xs (b1 m c t)) (b3 m c t) (b4 m c t) (b2 m c t) (b5 m c t) (b6 m c t) :=
  outLast_eq m c t h0 h3 xs

/-! ## One tile product -/

/-- The adjacency at natural-number coordinates (zero outside the node range; only coordinates inside are used). -/
def adjN (r j : ℕ) : EReal := if h : r < 16384 ∧ j < 16384 then adj (eA m c) ⟨r, h.1⟩ ⟨j, h.2⟩ else 0
/-- The node features at a natural-number row. -/
def xN (j : ℕ) (q : Fin 32) : EReal := if h : j < 16384 then xA m c (ix2 ⟨j, h⟩ q) else 0

/-- The product of the adjacency tile (row tile `i`, column tile `s`) with the features of column tile `s`. -/
def part (i s : ℕ) (p : Fin 1024) (q : Fin 32) : EReal :=
  ∑ k : Fin 4096, adjN m c (i * 1024 + p.val) (s * 4096 + k.val) * xN m c (s * 4096 + k.val) q

/-- What a step adds to the accumulator is the point's tile product. -/
theorem tile_eq (t : Fin cfg0.N) (p : Fin 1024) (q : Fin 32) :
    (∑ k : Fin 4096, b0 m c t (ix2 p k) * b1 m c t (ix2 k q)) = part m c (t.val / 4) (t.val % 4) p q := by
  unfold part
  refine Finset.sum_congr rfl fun k _ => ?_
  have ht := lt64 t
  rw [b0_apply, b1_apply]
  unfold adjN xN
  rw [dif_pos ⟨by omega, by omega⟩, dif_pos (by omega)]

/-! ## The accumulator after each point -/

/-- The accumulator after point `n`, typed. -/
def accAt (n : ℕ) (hn : n < cfg0.N) : Vec 𝕀 S1024x32 .f32 := (stateAt m c n hn).2

theorem accAt_first (t : Fin cfg0.N) (h0 : t.val % 4 = 0) (h3 : ¬t.val % 4 = 3) :
    accAt m c t.val t.isLt = k0_pay2 (F := 𝕀) (b0 m c t) (k0_pay1 (F := 𝕀)) (b1 m c t) := by
  unfold accAt; rw [stateAt_first m c t h0 h3]; (try dsimp only); exact accFirst_b m c t h0 h3
theorem accAt_mid (t : Fin cfg0.N) (h0 : ¬t.val % 4 = 0) (h3 : ¬t.val % 4 = 3) :
    accAt m c t.val t.isLt = k0_pay2 (F := 𝕀) (b0 m c t) (accAt m c (t.val - 1) (Nat.lt_of_le_of_lt (Nat.sub_le _ _) t.isLt)) (b1 m c t) := by
  unfold accAt; rw [stateAt_mid m c t h0 h3]; (try dsimp only); exact accMid_b m c t h0 h3 _
theorem accAt_last (t : Fin cfg0.N) (h0 : ¬t.val % 4 = 0) (h3 : t.val % 4 = 3) :
    accAt m c t.val t.isLt = k0_pay2 (F := 𝕀) (b0 m c t) (accAt m c (t.val - 1) (Nat.lt_of_le_of_lt (Nat.sub_le _ _) t.isLt)) (b1 m c t) := by
  unfold accAt; rw [stateAt_last m c t h0 h3]; (try dsimp only); exact accLast_b m c t h0 h3 _

/-- After point `n` the accumulator holds the tile products of its row tile's steps so far. -/
theorem acc_val : ∀ (n : ℕ) (hn : n < cfg0.N) (p : Fin 1024) (q : Fin 32),
    accAt m c n hn (ix2 p q) = ∑ s ∈ Finset.range (n % 4 + 1), part m c (n / 4) s p q := by
  intro n
  induction n with
  | zero =>
    intro hn p q
    rw [accAt_first m c ⟨0, hn⟩ (Nat.zero_mod 4) (by show ¬(0 % 4 = 3); decide), Cert.Gnn.Pay.pay2_apply, Cert.Gnn.Pay.pay1_apply, zero_add, tile_eq]
    show part m c (0 / 4) (0 % 4) p q = ∑ s ∈ Finset.range (0 % 4 + 1), part m c (0 / 4) s p q
    rw [Nat.zero_mod, Nat.zero_div, Finset.sum_range_one]
  | succ n ih =>
    intro hn p q
    by_cases h0 : (n + 1) % 4 = 0
    · have h3 : ¬(n + 1) % 4 = 3 := by omega
      rw [accAt_first m c ⟨n + 1, hn⟩ h0 h3, Cert.Gnn.Pay.pay2_apply, Cert.Gnn.Pay.pay1_apply, zero_add, tile_eq]
      show part m c ((n + 1) / 4) ((n + 1) % 4) p q = _
      rw [h0, Finset.sum_range_one]
    · have e1 : (n + 1) / 4 = n / 4 := by omega
      have e2 : (n + 1) % 4 = n % 4 + 1 := by omega
      have hprev := ih (Nat.lt_of_succ_lt hn) p q
      have hstep : accAt m c (n + 1) hn = k0_pay2 (F := 𝕀) (b0 m c ⟨n + 1, hn⟩) (accAt m c n (Nat.lt_of_succ_lt hn)) (b1 m c ⟨n + 1, hn⟩) := by
        by_cases h3 : (n + 1) % 4 = 3
        · exact accAt_last m c ⟨n + 1, hn⟩ h0 h3
        · exact accAt_mid m c ⟨n + 1, hn⟩ h0 h3
      rw [hstep, Cert.Gnn.Pay.pay2_apply, tile_eq, hprev]
      show _ + part m c ((n + 1) / 4) ((n + 1) % 4) p q = _
      rw [e1, e2, Finset.sum_range_succ _ (n % 4 + 1)]

/-! ## The four tile products are the message -/

/-- Over a row tile's four steps the tile products add up to the node's message: the sum over all 16384 columns,
    grouped as four runs of 4096. -/
theorem parts_eq_msg (i : ℕ) (hi : i < 16) (p : Fin 1024) (q : Fin 32) :
    ∑ s ∈ Finset.range 4, part m c i s p q = msg (xA m c) (eA m c) ⟨i * 1024 + p.val, by omega⟩ q := by
  unfold msg
  rw [Cert.LibBlockSum.sum_16384_blocks, Finset.sum_range]
  refine Finset.sum_congr rfl fun s _ => ?_
  unfold part
  refine Finset.sum_congr rfl fun k _ => ?_
  unfold adjN xN
  rw [dif_pos ⟨by omega, by omega⟩, dif_pos (by omega)]

/-! ## The output tile at a last step -/

/-- The output tile's buffer after point `t`, typed. -/
def outAt (t : Fin cfg0.N) : Vec 𝕀 S1024x32 .f32 := (stateAt m c t.val t.isLt).1

theorem outAt_last (t : Fin cfg0.N) (h0 : ¬t.val % 4 = 0) (h3 : t.val % 4 = 3) :
    outAt m c t = k0_pay3 (F := 𝕀) (accAt m c t.val t.isLt) (b3 m c t) (b4 m c t) (b2 m c t) (b5 m c t) (b6 m c t) := by
  rw [accAt_last m c t h0 h3]
  unfold outAt accAt; rw [stateAt_last m c t h0 h3]; (try dsimp only); exact outLast_b m c t h0 h3 _

/-- `G` at a row and a channel, written out. -/
theorem G_at (x : SX.Idx → EReal) (ei : SE.Idx → BitVec 32) (Wa : SW.Idx → EReal) (ba : SB.Idx → EReal)
    (Wu : SW.Idx → EReal) (bu : SB.Idx → EReal) (r : Fin 16384) (q : Fin 32) :
    G x ei Wa ba Wu bu (ix2 r q)
      = ((∑ k : Fin 32, x (ix2 r k) * Wu (ix2 q k)) + bu (ix1 q)) + ((∑ k : Fin 32, msg x ei r k * Wa (ix2 q k)) + ba (ix1 q)) := rfl

/-- The update layer's sum at a last step, read as the arguments. -/
theorem upd_sum (t : Fin cfg0.N) (p : Fin 1024) (q : Fin 32) :
    (∑ k : Fin 32, b2 m c t (ix2 p k) * b5 m c t (ix2 k q)) = ∑ k : Fin 32, xA m c (ix2 (⟨t.val / 4 * 1024 + p.val, by have := lt64 t; omega⟩ : Fin 16384) k) * wuA m c (ix2 q k) :=
  Finset.sum_congr rfl fun k _ => by rw [b2_apply, b5_apply]

/-- The aggregate layer's sum at a last step: the finished accumulator is the message. -/
theorem agg_sum (t : Fin cfg0.N) (h3 : t.val % 4 = 3) (p : Fin 1024) (q : Fin 32) :
    (∑ k : Fin 32, accAt m c t.val t.isLt (ix2 p k) * b3 m c t (ix2 k q))
      = ∑ k : Fin 32, msg (xA m c) (eA m c) (⟨t.val / 4 * 1024 + p.val, by have := lt64 t; omega⟩ : Fin 16384) k * waA m c (ix2 q k) := by
  have ht := lt64 t
  refine Finset.sum_congr rfl fun k _ => ?_
  rw [acc_val m c t.val t.isLt p k, h3, parts_eq_msg m c (t.val / 4) (by omega) p k, b3_apply]

/-- At a last reduction step the stored tile is `G` at the tile's rows. -/
theorem out_val (t : Fin cfg0.N) (h3 : t.val % 4 = 3) (p : Fin 1024) (q : Fin 32) :
    outAt m c t (ix2 p q)
      = G (xA m c) (eA m c) (waA m c) (baA m c) (wuA m c) (buA m c) (ix2 (⟨t.val / 4 * 1024 + p.val, by have := lt64 t; omega⟩ : Fin 16384) q) := by
  have h0 : ¬t.val % 4 = 0 := by omega
  rw [outAt_last m c t h0 h3, Cert.Gnn.Pay.pay3_apply, G_at, upd_sum, agg_sum m c t h3, b6_apply, b4_apply]

end Cert.KernelIdeal.Val

end
-- ==== Proof.KIFrameBody.lean ====
/-
  The body obligation: at every grid point the body, called on the point's staging buffers with
  the inputs at their blocks and the accumulator at what the point before left (anything at the very
  first point), runs to its end leaving the inputs as they were, the accumulator at this point's
  contents, and the output tile's buffer written at a last step and untouched otherwise. By cases on
  the reduction step, each case its run.
-/
import proofs.«136598_j14061722927248_2_alg».proof.Proof.KIFrameData

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- A first reduction step: the accumulator is at anything (the very first point) or at what the row tile before
    left; either way the body clears it first. -/
theorem sound_first (c : Dev nD) (t : Fin cfg0.N) (h0 : t.val % 4 = 0) :
    bodyPre m c t ⊢ wp frame (wpE (defs₀ (F := F)) Variants.none c none) Set.univ (bodyAt0 t) (fun _ => bodyPost m c t) := by
  have h3 : ¬t.val % 4 = 3 := by omega
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 4 t rfl, leaves_live m c 5 t rfl, leaves_live m c 6 t rfl,
    after0, after1, after2, after3, after4, after5, after6]
  rw [Dat.leavesExact_idle (dats m 0 c) 7 t (idleOut t (nLast_of t h3)) (noFlushOut t (nLast_of t h3))]
  rw [stateAt_first m c t h0 h3]
  unfold accFirst; (try dsimp only)
  by_cases hz : t.val = 0
  · rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirstAt m c t h0 h3).2 Set.univ _)
    isplitl [H0]; · iexact H0
    isplitl [H1]; · iexact H1
    isplitl [HS]; · iexact HS
    iintro ⟨H0, H1, ⟨%es, HS⟩⟩
    isplitl [HS Hg]
    · isplitl [HS]
      · unfold owns; iexists _; isplitr
        swap; · iexact HS
        ipureintro; exact View.read_writes_of_cover _ _ _ _ _ (accFirst_cover m c t h0 h3)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirstAt m c t h0 h3).2 Set.univ _)
    isplitl [H0]; · iexact H0
    isplitl [H1]; · iexact H1
    isplitl [HS]; · iexists _; iexact HS
    iintro ⟨H0, H1, ⟨%es, HS⟩⟩
    isplitl [HS Hg]
    · isplitl [HS]
      · unfold owns; iexists _; isplitr
        swap; · iexact HS
        ipureintro; exact View.read_writes_of_cover _ _ _ _ _ (accFirst_cover m c t h0 h3)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

set_option maxHeartbeats 4000000 in
/-- A middle reduction step. -/
theorem sound_mid (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  have hz : t.val ≠ 0 := fun h => h0 (by rw [h])
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 4 t rfl, leaves_live m c 5 t rfl, leaves_live m c 6 t rfl,
    after0, after1, after2, after3, after4, after5, after6]
  rw [Dat.leavesExact_idle (dats m 0 c) 7 t (idleOut t (nLast_of t h3)) (noFlushOut t (nLast_of t h3))]
  rw [stateAt_mid m c t h0 h3]
  unfold accMid; (try dsimp only)
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runMidAt m c t h0 h3 _).2 Set.univ _)
  isplitl [H0]; · iexact H0
  isplitl [H1]; · iexact H1
  isplitl [HS]; · iexact HS
  iintro ⟨H0, H1, ⟨%es, HS⟩⟩
  isplitl [HS Hg]
  · isplitl [HS]
    · unfold owns; iexists _; isplitr
      swap; · iexact HS
      ipureintro; exact View.read_writes_of_cover _ _ _ _ _ (accMid_cover m c t h0 h3 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- A last reduction step: the output tile is stored. -/
theorem sound_last (c : Dev nD) (t : Fin cfg0.N) (h3 : t.val % 4 = 3) :
    bodyPre m c t ⊢ wp frame (wpE (defs₀ (F := F)) Variants.none c none) Set.univ (bodyAt0 t) (fun _ => bodyPost m c t) := by
  have h0 : ¬t.val % 4 = 0 := by omega
  have hz : t.val ≠ 0 := fun h => h0 (by rw [h])
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 4 t rfl, leaves_live m c 5 t rfl, leaves_live m c 6 t rfl,
    after0, after1, after2, after3, after4, after5, after6]
  rw [leaves_live m c 7 t (liveOut t (hLast_of t h3)), after7]
  rw [stateAt_last m c t h0 h3]
  unfold outLast accLast; (try dsimp only)
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLastAt m c t h0 h3 _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, ⟨%e7, H7⟩, ⟨%es, HS⟩⟩
  isplitl [HS Hg]
  · isplitl [HS]
    · unfold owns; iexists _; isplitr
      swap; · iexact HS
      ipureintro; exact View.read_writes_of_cover _ _ _ _ _ (accLast_cover m c t h0 h3 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (outLast_cover m c t h0 h3 _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · by_cases h3 : t.val % 4 = 3
    · exact sound_last m c t h3
    · exact sound_mid m c t h0 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Frm

end
-- ==== Proof.KIFrameSplit.lean ====
/-
  The windowed arrays at the region's entry. Seven distinct buffers stand behind the eight windows:
  the node features are read through two windows. Each buffer is held whole at the full share; the
  features' buffer is divided into its two halves, one per window.
-/
import proofs.«136598_j14061722927248_2_alg».proof.Proof.KIFrameBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the arrays, whole at the region-entry contents, make up the windowed arrays of any proof
    data whose arrays are those contents and which gives the features' two windows the two halves of the share. -/
theorem hsplit_of {c : Dev nD} (dat : Dat τ (Elt F) Unit ℕ (UR sig nD τ) ℕ cfg0 c)
    (hA : ∀ w, dat.A w = V m c (Pipeline.arrRef spec0 w))
    (hq : dat.q = fun w => match w with | ⟨1, _⟩ => fullShare.left | ⟨2, _⟩ => fullShare.right | _ => fullShare) :
    (Pipeline.arrBufs spec0 c (V m c) : sProp 𝕄) ⊢ dat.arrays (dat.arrAt · 0) := by
  classical
  have hR : dat.arrays (dat.arrAt · 0)
      = bigSep Finset.univ fun w : Fin 8 => (((c : Thread nD τ).loc (Pipeline.arrRef spec0 w)) ↦{dat.share w} V m c (Pipeline.arrRef spec0 w) : sProp 𝕄) := by
    unfold Dat.arrays
    exact bigSep_congr fun w _ => by
      rw [(arr_whole0 w).set_eq_univ]
      dsimp only
      rw [show dat.arrAt w 0 = dat.A w from rfl, hA w]
  rw [hR, bigSep_W0]
  have hL : (Pipeline.arrBufs spec0 c (V m c) : sProp 𝕄)
      = iprop((((c : Thread nD τ).loc main_v21) ↦{fullShare} V m c main_v21) ∗ (((c : Thread nD τ).loc main_arg0) ↦{fullShare} V m c main_arg0)
          ∗ (((c : Thread nD τ).loc main_v22) ↦{fullShare} V m c main_v22) ∗ (((c : Thread nD τ).loc main_v24) ↦{fullShare} V m c main_v24)
          ∗ (((c : Thread nD τ).loc main_v23) ↦{fullShare} V m c main_v23) ∗ (((c : Thread nD τ).loc main_v25) ↦{fullShare} V m c main_v25)
          ∗ (((c : Thread nD τ).loc main_v26) ↦{fullShare} V m c main_v26)) :=
    bigSep_eq_bigSepL_of_eq [main_v21, main_arg0, main_v22, main_v24, main_v23, main_v25, main_v26] (by decide) (by decide) _
  rw [hL]
  have hs : ∀ w : Fin 8, dat.share w = (match w with | ⟨1, _⟩ => fullShare.left | ⟨2, _⟩ => fullShare.right | _ => fullShare) := by
    intro w; unfold Dat.share; rw [hq]
    match w with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  rw [hs 0, hs 1, hs 2, hs 3, hs 4, hs 5, hs 6, hs 7]
  iintro ⟨H21, Ha0, H22, H24, H23, H25, H26⟩
  ihave Hs := (pointsTo_share (PosShare.mem_left_op_right fullShare)).1 $$ Ha0
  icases Hs with ⟨HL, HR⟩
  isplitl [H21]; · iexact H21
  isplitl [HL]; · iexact HL
  isplitl [HR]; · iexact HR
  isplitl [H22]; · iexact H22
  isplitl [H24]; · iexact H24
  isplitl [H23]; · iexact H23
  isplitl [H25]; · iexact H25
  iexact H26

end Cert.KernelIdeal.Frm

end
-- ==== Proof.KIFrameRun.lean ====
/-
  The run of the whole program and the frame: every weakly fair execution terminates without a
  fault; afterwards the output array holds what the pipeline library computes from the proof data,
  and every argument array is as it was launched (the node features because an input window's array
  is never written; the other arguments because no window's array is theirs and no host operation
  writes them).
-/
import proofs.«136598_j14061722927248_2_alg».proof.Proof.KIFrameBody
import proofs.«136598_j14061722927248_2_alg».proof.Proof.KIFrameSplit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, and the library's post for the proof data. -/
theorem run_main : θ_run defs (onTc (τ := τ) (main (F := F))) (s₀ m ρ) (Pipeline.FramePost cfgs (dats m) 0 (V m)) :=
  Cert.LibFrameShared.θ_run_frame_track_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := fun c => hsplit_of m (dats m 0 c) (A_eq m c) rfl) (hin := hin m) (hout := hout m)

/-- The library's post gives the frame's: each argument array ends as launched. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine ⟨?_, ?_, ?_, ?_, ?_, ?_⟩
  · exact ((h c).1 1).trans (((dats m 0 c).arrAt_in 1 rfl _).trans ((A_eq m c 1).trans (V_arg m c main_arg0 (.inl rfl))))
  · exact ((h c).2 main_arg1 (Pipeline.mem_restRefs_of _ rfl (by decide))).trans (V_arg m c main_arg1 (.inr (.inl rfl)))
  · exact ((h c).2 main_arg2 (Pipeline.mem_restRefs_of _ rfl (by decide))).trans (V_arg m c main_arg2 (.inr (.inr (.inl rfl))))
  · exact ((h c).2 main_arg3 (Pipeline.mem_restRefs_of _ rfl (by decide))).trans (V_arg m c main_arg3 (.inr (.inr (.inr (.inl rfl)))))
  · exact ((h c).2 main_arg4 (Pipeline.mem_restRefs_of _ rfl (by decide))).trans (V_arg m c main_arg4 (.inr (.inr (.inr (.inr (.inl rfl))))))
  · exact ((h c).2 main_arg5 (Pipeline.mem_restRefs_of _ rfl (by decide))).trans (V_arg m c main_arg5 (.inr (.inr (.inr (.inr (.inr rfl))))))

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m r h c) (run_main m ρ)

end Cert.KernelIdeal.Frm

end
-- ==== Proof.KIFinal.lean ====
/-
  The kernel's whole run at the ideal instance, with its result named: the result array ends
  holding `G` of the argument arrays, and the arguments end unchanged.

  The output window writes a row tile back exactly at the tile's last reduction step, and the tile
  it writes is `G` at the tile's rows. Row `r` of the result lies in row tile `r / 1024`, written at
  point `4 (r / 1024) + 3`; so the sixteen written tiles cover the array and it ends holding `G`.
-/
import proofs.«136598_j14061722927248_2_alg».proof.Proof.KIValue
import proofs.«136598_j14061722927248_2_alg».proof.Proof.KIFrameRun

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open Cert.Gnn

local notation "𝕀" => Idealize.ShloMosaic.Ideal

variable (m : (ℓ : Loc nD τ sig) → Buf (Elt 𝕀) ℓ) (c : Dev nD)

/-- The result array, as the specification gives it. -/
abbrev result : S16384x32.Idx → EReal := G (xA m c) (eA m c) (waA m c) (baA m c) (wuA m c) (buA m c)

/-- What a write-back of the output window writes is the result read through the point's block. -/
theorem flushed_eq (t : Fin cfg0.N) (hf : (cfg0.win 7).flush t = true) :
    (dats (F := 𝕀) m 0 c).flushed 7 t = ((cfg0.win 7).blk t).view.read (Elt 𝕀) (result m c) := by
  have h3 : t.val % 4 = 3 := (flush0_7 t).mp hf
  show (cfg0.win 7).cut (grid0.coords t) ((dats m 0 c).after 7 t) = _
  rw [after7]
  refine funext fun (j : S1024x32.Idx) => ?_
  obtain ⟨p, q, rfl⟩ : ∃ (p : Fin 1024) (q : Fin 32), j = ix2 p q := ⟨j 0, j 1, eq_ix2 j⟩
  rw [blk7_read]
  exact out_val m c t h3 p q

/-- The result array after the run. -/
theorem final_out : (dats (F := 𝕀) m 0 c).arrAt 7 cfg0.N = result m c :=
  (dats m 0 c).arrAt_eq_of_cover 7 (result m c) (flushed_eq m c) fun i => by
    have hi0 : (i 0 : ℕ) < 16384 := (i 0).isLt
    have hi1 : (i 1 : ℕ) < 32 := (i 1).isLt
    have hN : cfg0.N = 64 := N_0
    have hlt : 4 * ((i 0 : ℕ) / 1024) + 3 < cfg0.N := by rw [hN]; omega
    refine ⟨⟨4 * ((i 0 : ℕ) / 1024) + 3, hlt⟩, (flush0_7 _).mpr (by show (4 * ((i 0 : ℕ) / 1024) + 3) % 4 = 3; omega), ?_⟩
    show i ∈ ((View.whole main_v26).slice (win0_7.rect ⟨4 * ((i 0 : ℕ) / 1024) + 3, hlt⟩)).set
    rw [View.set_slice_whole, Rect.mem_set_unit]
    intro a
    match a with
    | ⟨0, _⟩ =>
      show win0_7.index ⟨4 * ((i 0 : ℕ) / 1024) + 3, hlt⟩ 0 * win0_7.size 0 ≤ (i 0 : ℕ) ∧ (i 0 : ℕ) < win0_7.index ⟨4 * ((i 0 : ℕ) / 1024) + 3, hlt⟩ 0 * win0_7.size 0 + win0_7.xsize (grid0.coords ⟨4 * ((i 0 : ℕ) / 1024) + 3, hlt⟩) 0
      rw [(index7 _).1, (xsize7 _).1]
      show (4 * ((i 0 : ℕ) / 1024) + 3) / 4 * 1024 ≤ (i 0 : ℕ) ∧ (i 0 : ℕ) < (4 * ((i 0 : ℕ) / 1024) + 3) / 4 * 1024 + 1024
      omega
    | ⟨1, _⟩ =>
      show win0_7.index ⟨4 * ((i 0 : ℕ) / 1024) + 3, hlt⟩ 1 * win0_7.size 1 ≤ (i 1 : ℕ) ∧ (i 1 : ℕ) < win0_7.index ⟨4 * ((i 0 : ℕ) / 1024) + 3, hlt⟩ 1 * win0_7.size 1 + win0_7.xsize (grid0.coords ⟨4 * ((i 0 : ℕ) / 1024) + 3, hlt⟩) 1
      rw [(index7 _).2, (xsize7 _).2]
      show 0 * 32 ≤ (i 1 : ℕ) ∧ (i 1 : ℕ) < 0 * 32 + 32
      omega

/-- The run with its result named. -/
theorem run_value (ρ : Dev nD → PrngReg) :
    θ_run defs (onTc (τ := τ) (main (F := 𝕀))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 7).trans (final_out m c), args_kept m r h c⟩) (run_main m ρ)

end Cert.KernelIdeal.Val

end
-- ==== Proof.RefEdges.lean ====
import proofs.«136598_j14061722927248_2_alg».proof.Proof.Gen.ReferenceIdeal.Read
import proofs.«136598_j14061722927248_2_alg».proof.Proof.Spec

/-
  The two index tables the reference scatters with, read column by column.

  The reference cuts the edge table into its two rows, wraps each node number (a negative
  number counts from the end of the 16384 nodes), and joins the two wrapped rows
  as the two columns of a 524288 x 2 table: row `e` of the first table is `(src e, dst e)`, row `e`
  of the second is `(dst e, src e)`.
-/

noncomputable section

namespace Cert.Gnn.Ref

open Cert.ReferenceIdeal Cert.ReferenceIdeal.Gen Cert.ReferenceIdeal.Read Idealize.ShloMosaic Idealize.ShloMosaic.ValueIdx

/-- Row 0 of the edge table at edge `e`, through the slice and the reshape. -/
theorem row0_idx (e : Fin 524288) :
    idx_main_v0 (idx_main_v1 (ix1 e)) = ix2 (0 : Fin 2) e :=
  funext fun a => Fin.ext (by
    match a with
    | ⟨0, _⟩ => rfl
    | ⟨1, _⟩ => exact Nat.mod_eq_of_lt e.isLt)

/-- Row 1 of the edge table at edge `e`, through the slice and the reshape. -/
theorem row1_idx (e : Fin 524288) :
    idx_main_v2 (idx_main_v3 (ix1 e)) = ix2 (1 : Fin 2) e :=
  funext fun a => Fin.ext (by
    match a with
    | ⟨0, _⟩ => rfl
    | ⟨1, _⟩ => exact Nat.mod_eq_of_lt e.isLt)

/-- The first row of the edge table, flattened, is the edges' first node numbers. -/
theorem v1_at (x1 : (⟨S2x524288, .i32⟩ : BufTy).Contents (Elt Ideal)) (e : Fin 524288) :
    val_main_v1 (F := Ideal) x1 (ix1 e) = x1 (ix2 (0 : Fin 2) e) := by
  rw [val_main_v1_apply, val_main_v0_apply, row0_idx]

/-- The second row of the edge table, flattened, is the edges' second node numbers. -/
theorem v3_at (x1 : (⟨S2x524288, .i32⟩ : BufTy).Contents (Elt Ideal)) (e : Fin 524288) :
    val_main_v3 (F := Ideal) x1 (ix1 e) = x1 (ix2 (1 : Fin 2) e) := by
  rw [val_main_v3_apply, val_main_v2_apply, row1_idx]

/-- The wrapped first node numbers (first table's copy). -/
theorem v9_at (x1 : (⟨S2x524288, .i32⟩ : BufTy).Contents (Elt Ideal)) (e : Fin 524288) :
    val_main_v9 (F := Ideal) x1 (ix1 e) = src x1 e := by
  rw [val_main_v9_apply, val_main_v6_apply, val_main_v8_apply, v1_at, val_main_v5_apply, val_main_c_apply,
    val_main_v7_apply, val_main_c_0_apply]
  rfl

/-- The wrapped second node numbers (first table's copy). -/
theorem v14_at (x1 : (⟨S2x524288, .i32⟩ : BufTy).Contents (Elt Ideal)) (e : Fin 524288) :
    val_main_v14 (F := Ideal) x1 (ix1 e) = dst x1 e := by
  rw [val_main_v14_apply, val_main_v11_apply, val_main_v13_apply, v3_at, val_main_v10_apply, val_main_c_1_apply,
    val_main_v12_apply, val_main_c_2_apply]
  rfl

/-- The wrapped second node numbers (second table's copy). -/
theorem v24_at (x1 : (⟨S2x524288, .i32⟩ : BufTy).Contents (Elt Ideal)) (e : Fin 524288) :
    val_main_v24 (F := Ideal) x1 (ix1 e) = dst x1 e := by
  rw [val_main_v24_apply, val_main_v21_apply, val_main_v23_apply, v3_at, val_main_v20_apply, val_main_c_4_apply,
    val_main_v22_apply, val_main_c_5_apply]
  rfl

/-- The wrapped first node numbers (second table's copy). -/
theorem v29_at (x1 : (⟨S2x524288, .i32⟩ : BufTy).Contents (Elt Ideal)) (e : Fin 524288) :
    val_main_v29 (F := Ideal) x1 (ix1 e) = src x1 e := by
  rw [val_main_v29_apply, val_main_v26_apply, val_main_v28_apply, v1_at, val_main_v25_apply, val_main_c_6_apply,
    val_main_v27_apply, val_main_c_7_apply]
  rfl

/-- A one-column table's only column is the vector it was made from. -/
theorem col_idx (e : Fin 524288) : idx_main_v15 (ix2 e (0 : Fin 1)) = ix1 e :=
  funext fun a => Fin.ext (by match a with | ⟨0, _⟩ => rfl)

theorem col_idx16 (e : Fin 524288) : idx_main_v16 (ix2 e (0 : Fin 1)) = ix1 e := col_idx e
theorem col_idx30 (e : Fin 524288) : idx_main_v30 (ix2 e (0 : Fin 1)) = ix1 e := col_idx e
theorem col_idx31 (e : Fin 524288) : idx_main_v31 (ix2 e (0 : Fin 1)) = ix1 e := col_idx e

/-- Column 0 of the first table: the edges' wrapped first node numbers. -/
theorem v17_col0 (x1 : (⟨S2x524288, .i32⟩ : BufTy).Contents (Elt Ideal)) (e : Fin 524288) :
    val_main_v17 (F := Ideal) x1 (ix2 e (0 : Fin 2)) = src x1 e := by
  unfold val_main_v17
  rw [concatenate_pair_apply_left (1 : Fin S524288x2.rank) _ _ concatenates_S524288x1_S524288x1_S524288x2_d1
    (ix2 e (0 : Fin 2)) rfl (ix2 e (0 : Fin 1)) (fun b => match b with | ⟨0, _⟩ => rfl | ⟨1, _⟩ => rfl)]
  rw [val_main_v15_apply, col_idx, v9_at]

/-- Column 1 of the first table: the edges' wrapped second node numbers. -/
theorem v17_col1 (x1 : (⟨S2x524288, .i32⟩ : BufTy).Contents (Elt Ideal)) (e : Fin 524288) :
    val_main_v17 (F := Ideal) x1 (ix2 e (1 : Fin 2)) = dst x1 e := by
  unfold val_main_v17
  rw [concatenate_pair_apply_right (1 : Fin S524288x2.rank) _ _ concatenates_S524288x1_S524288x1_S524288x2_d1
    (ix2 e (1 : Fin 2)) rfl rfl (ix2 e (0 : Fin 1))
    (fun b hb => match b, hb with | ⟨0, _⟩, _ => rfl | ⟨1, _⟩, hb => absurd rfl hb) rfl]
  rw [val_main_v16_apply, col_idx16, v14_at]

/-- Column 0 of the second table: the edges' wrapped second node numbers. -/
theorem v32_col0 (x1 : (⟨S2x524288, .i32⟩ : BufTy).Contents (Elt Ideal)) (e : Fin 524288) :
    val_main_v32 (F := Ideal) x1 (ix2 e (0 : Fin 2)) = dst x1 e := by
  unfold val_main_v32
  rw [concatenate_pair_apply_left (1 : Fin S524288x2.rank) _ _ concatenates_S524288x1_S524288x1_S524288x2_d1
    (ix2 e (0 : Fin 2)) rfl (ix2 e (0 : Fin 1)) (fun b => match b with | ⟨0, _⟩ => rfl | ⟨1, _⟩ => rfl)]
  rw [val_main_v30_apply, col_idx30, v24_at]

/-- Column 1 of the second table: the edges' wrapped first node numbers. -/
theorem v32_col1 (x1 : (⟨S2x524288, .i32⟩ : BufTy).Contents (Elt Ideal)) (e : Fin 524288) :
    val_main_v32 (F := Ideal) x1 (ix2 e (1 : Fin 2)) = src x1 e := by
  unfold val_main_v32
  rw [concatenate_pair_apply_right (1 : Fin S524288x2.rank) _ _ concatenates_S524288x1_S524288x1_S524288x2_d1
    (ix2 e (1 : Fin 2)) rfl rfl (ix2 e (0 : Fin 1))
    (fun b hb => match b, hb with | ⟨0, _⟩, _ => rfl | ⟨1, _⟩, hb => absurd rfl hb) rfl]
  rw [val_main_v31_apply, col_idx31, v29_at]

end Cert.Gnn.Ref

end
-- ==== Proof.RefScatter.lean ====
import proofs.«136598_j14061722927248_2_alg».proof.Proof.Gen.ReferenceIdeal.Read
import proofs.«136598_j14061722927248_2_alg».proof.Proof.Spec

/-
  Where an update of the reference's scatters lands.

  Both scatters write scalars into the 16384 x 16384 matrix at the (row, column) pairs a
  524288 x 2 table names: update `r` reads its row off column 0 of the table's row `r` and its column
  off column 1, both as signed numbers and unclamped; there is no window (both matrix axes are
  inserted), so the landing place on each axis is that number alone, and the update is dropped when
  either number is outside `[0, 16384)`. Hence update `r` lands on entry `(i, j)` exactly when the two
  numbers are `i` and `j`.
-/

noncomputable section

namespace Cert.Gnn.Ref

open Cert.ReferenceIdeal Cert.ReferenceIdeal.Gen Cert.ReferenceIdeal.Read Idealize.ShloMosaic Idealize.ShloMosaic.ValueIdx

/-- Component `c` of update `r`'s start index is read at `(r, c)` of the table. -/
theorem siIdx_at (r : Fin 524288) (c : Fin 2) :
    ScatterDims.siIdx scatter_S16384x16384_S524288x2_S524288_n_01_01_1 (ix1 r) (c.cast (by decide)) = ix2 r c := by
  funext b
  match b with
  | ⟨0, _⟩ => rfl
  | ⟨1, _⟩ => rfl

/-- The start on the row axis is the table's entry `(r, 0)`, signed. -/
theorem start_row (r : Fin 524288) (idx : S524288x2.Idx → BitVec 32) :
    ScatterDims.start scatter_S16384x16384_S524288x2_S524288_n_01_01_1 (ix1 r) idx (0 : Fin 2)
      = (idx (ix2 r (0 : Fin 2))).toInt := by
  unfold ScatterDims.start
  rw [dif_pos (by decide)]
  exact congrArg (fun z => (idx z).toInt) (siIdx_at r 0)

/-- The start on the column axis is the table's entry `(r, 1)`, signed. -/
theorem start_col (r : Fin 524288) (idx : S524288x2.Idx → BitVec 32) :
    ScatterDims.start scatter_S16384x16384_S524288x2_S524288_n_01_01_1 (ix1 r) idx (1 : Fin 2)
      = (idx (ix2 r (1 : Fin 2))).toInt := by
  unfold ScatterDims.start
  rw [dif_pos (by decide)]
  exact congrArg (fun z => (idx z).toInt) (siIdx_at r 1)

/-- No window: both matrix axes are inserted, so the window coordinate is 0 on each. -/
theorem window_zero (r : Fin 524288) (a : Fin 2) :
    ScatterDims.window scatter_S16384x16384_S524288x2_S524288_n_01_01_1 (ix1 r) a = 0 := by
  unfold ScatterDims.window
  rw [dif_neg (by revert a; decide)]

/-- The landing coordinate of update `r` on axis `a`: the table's entry `(r, a)`, signed. -/
theorem landing (r : Fin 524288) (idx : S524288x2.Idx → BitVec 32) (a : Fin 2) :
    ScatterDims.start scatter_S16384x16384_S524288x2_S524288_n_01_01_1 (ix1 r) idx a
      + (ScatterDims.window scatter_S16384x16384_S524288x2_S524288_n_01_01_1 (ix1 r) a : Int) = (idx (ix2 r a)).toInt := by
  rw [window_zero]
  match a with
  | ⟨0, _⟩ => exact (add_zero _).trans (start_row r idx)
  | ⟨1, _⟩ => exact (add_zero _).trans (start_col r idx)

/-- Update `r` lands on entry `(i, j)` exactly when the table's row `r` is `(i, j)`. If the row is
    `(i, j)` both numbers are inside the matrix, so the update is not dropped; conversely a kept
    update's landing place is its two numbers. -/
theorem resultIdx_iff (r : Fin 524288) (idx : S524288x2.Idx → BitVec 32) (i j : Fin 16384) :
    ScatterDims.resultIdx? scatter_S16384x16384_S524288x2_S524288_n_01_01_1 (ix1 r) idx = some (ix2 i j) ↔
      ((idx (ix2 r (0 : Fin 2))).toInt = (i.val : Int) ∧ (idx (ix2 r (1 : Fin 2))).toInt = (j.val : Int)) := by
  unfold ScatterDims.resultIdx?
  split
  · next h =>
    rw [Option.some.injEq]
    constructor
    · intro hf
      have h0 : (ScatterDims.start scatter_S16384x16384_S524288x2_S524288_n_01_01_1 (ix1 r) idx 0
          + (ScatterDims.window scatter_S16384x16384_S524288x2_S524288_n_01_01_1 (ix1 r) 0 : Int)).toNat = i.val :=
        congrArg (fun f : S16384x16384.Idx => (f (0 : Fin 2)).val) hf
      have h1 : (ScatterDims.start scatter_S16384x16384_S524288x2_S524288_n_01_01_1 (ix1 r) idx 1
          + (ScatterDims.window scatter_S16384x16384_S524288x2_S524288_n_01_01_1 (ix1 r) 1 : Int)).toNat = j.val :=
        congrArg (fun f : S16384x16384.Idx => (f (1 : Fin 2)).val) hf
      have p0 := (h 0).1
      have p1 := (h 1).1
      rw [landing] at h0 h1 p0 p1
      constructor <;> omega
    · rintro ⟨e0, e1⟩
      funext a
      apply Fin.ext
      match a with
      | ⟨0, _⟩ =>
        show (ScatterDims.start scatter_S16384x16384_S524288x2_S524288_n_01_01_1 (ix1 r) idx 0
          + (ScatterDims.window scatter_S16384x16384_S524288x2_S524288_n_01_01_1 (ix1 r) 0 : Int)).toNat = i.val
        rw [landing, e0]; exact Int.toNat_natCast _
      | ⟨1, _⟩ =>
        show (ScatterDims.start scatter_S16384x16384_S524288x2_S524288_n_01_01_1 (ix1 r) idx 1
          + (ScatterDims.window scatter_S16384x16384_S524288x2_S524288_n_01_01_1 (ix1 r) 1 : Int)).toNat = j.val
        rw [landing, e1]; exact Int.toNat_natCast _
  · next h =>
    constructor
    · intro hf; cases hf
    · rintro ⟨e0, e1⟩
      exfalso
      apply h
      intro a
      rw [landing]
      match a with
      | ⟨0, _⟩ =>
        show 0 ≤ (idx (ix2 r (0 : Fin 2))).toInt ∧ (idx (ix2 r (0 : Fin 2))).toInt < ((16384 : Nat) : Int)
        rw [e0]; have := i.isLt; omega
      | ⟨1, _⟩ =>
        show 0 ≤ (idx (ix2 r (1 : Fin 2))).toInt ∧ (idx (ix2 r (1 : Fin 2))).toInt < ((16384 : Nat) : Int)
        rw [e1]; have := j.isLt; omega

/-- Some update lands on entry `(i, j)` exactly when some row of the table is `(i, j)`. -/
theorem lands_iff (idx : S524288x2.Idx → BitVec 32) (i j : Fin 16384) :
    (∃ u : S524288.Idx, ScatterDims.resultIdx? scatter_S16384x16384_S524288x2_S524288_n_01_01_1 u idx = some (ix2 i j)) ↔
      (∃ r : Fin 524288, (idx (ix2 r (0 : Fin 2))).toInt = (i.val : Int) ∧ (idx (ix2 r (1 : Fin 2))).toInt = (j.val : Int)) := by
  constructor
  · rintro ⟨u, h⟩
    obtain ⟨r, rfl⟩ : ∃ r : Fin 524288, u = ix1 r := ⟨u 0, eq_ix1 u⟩
    exact ⟨r, (resultIdx_iff r idx i j).1 h⟩
  · rintro ⟨r, h⟩
    exact ⟨ix1 r, (resultIdx_iff r idx i j).2 h⟩

end Cert.Gnn.Ref

end
-- ==== Proof.RefAdj.lean ====
import proofs.«136598_j14061722927248_2_alg».proof.Proof.RefEdges
import proofs.«136598_j14061722927248_2_alg».proof.Proof.RefScatter
import proofs.«136598_j14061722927248_2_alg».proof.Proof.LibScatterSet

/-
  The matrix the reference builds is the adjacency.

  The reference starts from the 16384 x 16384 zero matrix, writes 1 at `(src e, dst e)` for every
  edge `e`, then writes 1 at `(dst e, src e)` for every edge `e` (an entry outside the matrix is
  dropped). Writing the same constant, the order of the writes does not matter: entry `(i, j)` ends
  as 1 exactly when some edge hits it in the first pass or in the second, that is when `i` and `j` are
  joined, and as 0 otherwise.
-/

noncomputable section

namespace Cert.Gnn.Ref

open Cert.ReferenceIdeal Cert.ReferenceIdeal.Gen Cert.ReferenceIdeal.Read Idealize.ShloMosaic Idealize.ShloMosaic.ValueIdx

/-- The pattern of the float one denotes the extended real 1: `2^23 * 2^(-23)`. -/
theorem one_f32 : Ideal.ofBits .f32 0x3F800000#32 = 1 := by
  simp [Ideal.ofBits, Ideal.ieee]
  rw [← EReal.coe_mul]
  norm_num

/-- The first pass writes the constant one. -/
theorem v18_eq : val_main_v18 (F := Ideal) = fun _ => Ideal.ofBits .f32 0x3F800000#32 := by
  funext i
  rw [val_main_v18_apply, val_main_cst_3_apply]
  rfl

/-- The second pass writes the constant one. -/
theorem v33_eq : val_main_v33 (F := Ideal) = fun _ => Ideal.ofBits .f32 0x3F800000#32 := by
  funext i
  rw [val_main_v33_apply, val_main_cst_8_apply]
  rfl

open Classical in
/-- Writing one constant at the places a two-column table names: an entry is the constant when some
    row of the table names it, and is unchanged otherwise. -/
theorem scatter_at (x : S16384x16384.Idx → EReal) (idx : S524288x2.Idx → BitVec 32) (c : EReal) (i j : Fin 16384) :
    Host.scatter scatter_S16384x16384_S524288x2_S524288_n_01_01_1 (fun _ b => b) x idx (fun _ => c) (ix2 i j) =
      if (∃ r : Fin 524288, (idx (ix2 r (0 : Fin 2))).toInt = (i.val : Int) ∧ (idx (ix2 r (1 : Fin 2))).toInt = (j.val : Int))
      then c else x (ix2 i j) := by
  rw [Cert.LibScatterSet.scatter_const]
  by_cases h : ∃ r : Fin 524288, (idx (ix2 r (0 : Fin 2))).toInt = (i.val : Int) ∧ (idx (ix2 r (1 : Fin 2))).toInt = (j.val : Int)
  · rw [if_pos h, if_pos ((lands_iff idx i j).2 h)]
  · rw [if_neg h, if_neg (fun h' => h ((lands_iff idx i j).1 h'))]

/-- Entry `(i, j)` of the reference's matrix is `adj i j`. -/
theorem v34_at (x1 : (⟨S2x524288, .i32⟩ : BufTy).Contents (Elt Ideal)) (i j : Fin 16384) :
    val_main_v34 (F := Ideal) x1 (ix2 i j) = adj x1 i j := by
  unfold val_main_v34 val_main_v19
  rw [v33_eq, v18_eq, scatter_at, scatter_at]
  simp only [v17_col0, v17_col1, v32_col0, v32_col1]
  rw [val_main_v4_apply, val_main_cst_apply]
  have hJ : Joined x1 i j ↔
      ((∃ r : Fin 524288, (dst x1 r).toInt = (i.val : Int) ∧ (src x1 r).toInt = (j.val : Int))
        ∨ (∃ r : Fin 524288, (src x1 r).toInt = (i.val : Int) ∧ (dst x1 r).toInt = (j.val : Int))) := by
    unfold Joined
    constructor
    · rintro ⟨e, h | h⟩
      · exact Or.inr ⟨e, h⟩
      · exact Or.inl ⟨e, h⟩
    · rintro (⟨e, h⟩ | ⟨e, h⟩)
      · exact ⟨e, Or.inr h⟩
      · exact ⟨e, Or.inl h⟩
  unfold adj
  by_cases h2 : ∃ r : Fin 524288, (dst x1 r).toInt = (i.val : Int) ∧ (src x1 r).toInt = (j.val : Int)
  · rw [if_pos h2, if_pos (hJ.2 (Or.inl h2)), one_f32]
  · rw [if_neg h2]
    by_cases h1 : ∃ r : Fin 524288, (src x1 r).toInt = (i.val : Int) ∧ (dst x1 r).toInt = (j.val : Int)
    · rw [if_pos h1, if_pos (hJ.2 (Or.inr h1)), one_f32]
    · rw [if_neg h1, if_neg (fun h => (hJ.1 h).elim h2 h1)]
      exact Ideal.ofBits_zero_f32

end Cert.Gnn.Ref

end
-- ==== Proof.RefLayers.lean ====
import proofs.«136598_j14061722927248_2_alg».proof.Proof.Gen.ReferenceIdeal.Read
import proofs.«136598_j14061722927248_2_alg».proof.Proof.Spec

/-
  From the adjacency matrix to the result.

  Given that the matrix the reference builds is the 0/1 adjacency `adj`, the rest of the reference is
  three matrix products and two biases: the message `msg = adj * x`, the aggregate layer
  `msg * Wa^T + ba`, the update layer `x * Wu^T + bu`, and their sum. Each product is a sum over the
  contracted index; a transposed weight matrix is read at `(c, k)`; a bias is read at the column.
  On the extended reals the program's additions are `+`, so the two sides are the same term once
  the index functions are named.
-/

noncomputable section

namespace Cert.Gnn.Ref

open Cert.ReferenceIdeal Cert.ReferenceIdeal.Gen Cert.ReferenceIdeal.Read Idealize.ShloMosaic Idealize.ShloMosaic.ValueIdx

/-- The message: row `p` of the matrix times column `k` of the features. -/
theorem v35_at (x0 : (⟨S16384x32, .f32⟩ : BufTy).Contents (Elt Ideal)) (x1 : (⟨S2x524288, .i32⟩ : BufTy).Contents (Elt Ideal))
    (hadj : ∀ i j : Fin 16384, val_main_v34 (F := Ideal) x1 (ix2 i j) = adj x1 i j) (p : Fin 16384) (k : Fin 32) :
    val_main_v35 (F := Ideal) x0 x1 (ix2 p k) = msg x0 x1 p k := by
  rw [val_main_v35_apply]
  unfold msg
  refine Finset.sum_congr rfl fun j _ => ?_
  have el : lidx_main_v35 (ix2 p k) j = ix2 p j :=
    funext fun a => Fin.ext (by match a with | ⟨0, _⟩ => rfl | ⟨1, _⟩ => rfl)
  have er : ridx_main_v35 (ix2 p k) j = ix2 j k :=
    funext fun a => Fin.ext (by match a with | ⟨0, _⟩ => rfl | ⟨1, _⟩ => rfl)
  rw [el, er, hadj]

/-- The aggregate layer applied to the message. -/
theorem v40_at (x0 : (⟨S16384x32, .f32⟩ : BufTy).Contents (Elt Ideal)) (x1 : (⟨S2x524288, .i32⟩ : BufTy).Contents (Elt Ideal))
    (x2 : (⟨S32x32, .f32⟩ : BufTy).Contents (Elt Ideal)) (x3 : (⟨S32, .f32⟩ : BufTy).Contents (Elt Ideal))
    (hadj : ∀ i j : Fin 16384, val_main_v34 (F := Ideal) x1 (ix2 i j) = adj x1 i j) (p : Fin 16384) (q : Fin 32) :
    val_main_v40 (F := Ideal) x0 x1 x2 x3 (ix2 p q) = layer x2 x3 (fun k => msg x0 x1 p k) q := by
  rw [val_main_v40_apply, val_main_v37_apply, val_main_v39_apply, val_main_v38_apply]
  unfold layer
  have eb : idx_main_v38 (idx_main_v39 (ix2 p q)) = ix1 q :=
    funext fun a => Fin.ext (by match a with | ⟨0, _⟩ => rfl)
  rw [eb]
  refine congrArg₂ (· + ·) (Finset.sum_congr rfl fun k _ => ?_) rfl
  have el : lidx_main_v37 (ix2 p q) k = ix2 p k :=
    funext fun a => Fin.ext (by match a with | ⟨0, _⟩ => rfl | ⟨1, _⟩ => rfl)
  have er : idx_main_v36 (ridx_main_v37 (ix2 p q) k) = ix2 q k :=
    funext fun a => Fin.ext (by match a with | ⟨0, _⟩ => rfl | ⟨1, _⟩ => rfl)
  rw [el, v35_at x0 x1 hadj, val_main_v36_apply, er]

/-- The update layer applied to the node's own features. -/
theorem v45_at (x0 : (⟨S16384x32, .f32⟩ : BufTy).Contents (Elt Ideal))
    (x4 : (⟨S32x32, .f32⟩ : BufTy).Contents (Elt Ideal)) (x5 : (⟨S32, .f32⟩ : BufTy).Contents (Elt Ideal))
    (p : Fin 16384) (q : Fin 32) :
    val_main_v45 (F := Ideal) x0 x4 x5 (ix2 p q) = layer x4 x5 (fun k => x0 (ix2 p k)) q := by
  rw [val_main_v45_apply, val_main_v42_apply, val_main_v44_apply, val_main_v43_apply]
  unfold layer
  have eb : idx_main_v43 (idx_main_v44 (ix2 p q)) = ix1 q :=
    funext fun a => Fin.ext (by match a with | ⟨0, _⟩ => rfl)
  rw [eb]
  refine congrArg₂ (· + ·) (Finset.sum_congr rfl fun k _ => ?_) rfl
  have el : lidx_main_v42 (ix2 p q) k = ix2 p k :=
    funext fun a => Fin.ext (by match a with | ⟨0, _⟩ => rfl | ⟨1, _⟩ => rfl)
  have er : idx_main_v41 (ridx_main_v42 (ix2 p q) k) = ix2 q k :=
    funext fun a => Fin.ext (by match a with | ⟨0, _⟩ => rfl | ⟨1, _⟩ => rfl)
  rw [el, val_main_v41_apply, er]

/-- The reference's result is `G`, given that its matrix is the adjacency. -/
theorem ref_of_adj (x0 : (⟨S16384x32, .f32⟩ : BufTy).Contents (Elt Ideal)) (x1 : (⟨S2x524288, .i32⟩ : BufTy).Contents (Elt Ideal))
    (x2 x4 : (⟨S32x32, .f32⟩ : BufTy).Contents (Elt Ideal)) (x3 x5 : (⟨S32, .f32⟩ : BufTy).Contents (Elt Ideal))
    (hadj : ∀ i j : Fin 16384, val_main_v34 (F := Ideal) x1 (ix2 i j) = adj x1 i j) :
    val_main_v46 (F := Ideal) x0 x1 x2 x3 x4 x5 = G x0 x1 x2 x3 x4 x5 := by
  funext i
  obtain ⟨p, q, rfl⟩ : ∃ (p : Fin 16384) (q : Fin 32), i = ix2 p q := ⟨i 0, i 1, eq_ix2 i⟩
  rw [val_main_v46_apply, v45_at, v40_at x0 x1 x2 x3 hadj]
  rfl

end Cert.Gnn.Ref

end
-- ==== Proof.RefIsG.lean ====
import proofs.«136598_j14061722927248_2_alg».proof.Proof.RefAdj
import proofs.«136598_j14061722927248_2_alg».proof.Proof.RefLayers

/-
  The reference computes `G`.

  The matrix the reference builds from the edge table is the 0/1 adjacency; the rest of the
  reference is the message `adj * x`, the two affine layers and their sum, which is `G` term by term.
-/

noncomputable section

namespace Cert.Gnn.Ref

open Cert.ReferenceIdeal Cert.ReferenceIdeal.Gen Cert.ReferenceIdeal.Read Idealize.ShloMosaic Idealize.ShloMosaic.ValueIdx

/-- The reference program's result, read on the extended reals, is the specification `G` of its
    arguments (features, edge table, aggregate weights and bias, update weights and bias). -/
theorem ref_is_G (x0 : (⟨S16384x32, .f32⟩ : BufTy).Contents (Elt Ideal)) (x1 : (⟨S2x524288, .i32⟩ : BufTy).Contents (Elt Ideal))
    (x2 : (⟨S32x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) :
    Cert.ReferenceIdeal.Read.val_main_v46 (F := Ideal) x0 x1 x2 x3 x4 x5 = Cert.Gnn.G x0 x1 x2 x3 x4 x5 :=
  ref_of_adj x0 x1 x2 x4 x3 x5 (fun i j => v34_at x1 i j)

end Cert.Gnn.Ref

end
-- ==== Proof.lean ====
/-
  A graph network layer: from node features `x`, an edge table and two affine layers, the result is
  `G i c = (sum_k x i k * Wu c k + bu c) + (sum_k msg i k * Wa c k + ba c)`, where `msg i` is the sum of
  the feature rows of the nodes joined to `i` (`Cert.Gnn`, Spec.lean).

  The kernel builds the 0/1 adjacency with ONE scatter of the constant 1 over the edge list and its
  reverse, then runs a 16 x 4 grid: each row tile accumulates four tile products of the adjacency
  with the features and, at its last step, applies the two layers. The reference builds the
  adjacency with TWO scatters of the constant 1 and multiplies whole matrices. At the ideal instance
  the two agree: a scatter that writes one constant leaves that constant exactly where some update
  lands and the operand elsewhere, whatever the order and however the updates are split into
  scatters; and the four tile sums are the whole sum regrouped. Neither step needs the inputs to be
  finite, so the precondition is not used.

  The three frames: the two kernel programs run through the pipeline with a tracked accumulator,
  the node features' array shared between the two windows that read it; the reference is a straight
  line of host operations. The idealization rewrote nothing, so `preserves` has no conjunct.
-/
import proofs.«136598_j14061722927248_2_alg».proof.Defs
import proofs.«136598_j14061722927248_2_alg».proof.Proof.Gen.Kernel
import proofs.«136598_j14061722927248_2_alg».proof.Proof.Gen.KernelIdeal
import proofs.«136598_j14061722927248_2_alg».proof.Proof.Gen.ReferenceIdeal
import proofs.«136598_j14061722927248_2_alg».proof.Proof.Gen.ReferenceIdeal.Run
import proofs.«136598_j14061722927248_2_alg».proof.Proof.Gen.ReferenceIdeal.Read
import proofs.«136598_j14061722927248_2_alg».proof.Proof.Gen.Pre_finite_inputs
import proofs.«136598_j14061722927248_2_alg».proof.Proof.KFrameRun
import proofs.«136598_j14061722927248_2_alg».proof.Proof.KIFinal
import proofs.«136598_j14061722927248_2_alg».proof.Proof.RefIsG
import Idealize.ShloMosaic.Adequacy
import Idealize.ShloMosaic.Init

noncomputable section

namespace Cert.Proof

open Idealize.ShloMosaic Idealize.SL.Sem

local notation "𝕀" => Idealize.ShloMosaic.Ideal

/-- The word-level kernel runs to its end and leaves its arguments unchanged. -/
theorem frame_k : Cert.frame_Kernel (hKernel := Cert.Kernel.Gen.facts) (hPre_finite_inputs := Cert.Pre_finite_inputs.Gen.facts) :=
  fun m ρ _ => Cert.Kernel.Frm.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := 𝕀) m ρ)

/-- Both idealized programs end with the result array at `G` of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.result m c, Cert.KernelIdeal.Val.run_value m ρ, ?_⟩
  refine (θ_run Cert.ReferenceIdeal.defs _ _).mono (fun _ h c => ⟨(h c).1.trans ?_, (h c).2⟩)
    (Cert.ReferenceIdeal.Value.run (F := 𝕀) m' ρ')
  rw [Cert.ReferenceIdeal.Read.val_main_v46_eq, Cert.Gnn.Ref.ref_is_G,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
